-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S64x32 .f32) (main_arg9 : FVec F S32 .f32) (main_v33 : IVec S_ 1) : IVec S_ 1 :=
  let main_v34 : FVec F S64x32 .f32 := Host.absf main_arg8
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x32 .f32) (main_arg9 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x32 .f32) (main_arg9 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩
abbrev S10000 : Shape := ⟨1, ![10000]⟩
abbrev S10000x1 : Shape := ⟨2, ![10000, 1]⟩

abbrev nBuf : Space → Nat
  | .hbm => 109
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S1x64, .f32⟩
  | .hbm, ⟨51, _⟩ => ⟨S100000x64, .f32⟩
  | .hbm, ⟨52, _⟩ => ⟨S100000x64, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x64, .f32⟩
  | .hbm, ⟨62, _⟩ => ⟨S1700000x1, .f32⟩
  | .hbm, ⟨63, _⟩ => ⟨S1700000x64, .f32⟩
  | .hbm, ⟨64, _⟩ => ⟨S1700000x64, .f32⟩
  | .hbm, ⟨65, _⟩ => ⟨S_, .f32⟩
  | .hbm, ⟨66, _⟩ => ⟨S100000x64, .f32⟩
  | .hbm, ⟨67, _⟩ => ⟨S1700000x1, .i32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x1, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x32, .f32⟩
  | .hbm, ⟨91, _⟩ => ⟨S_, .i32⟩
  | .hbm, ⟨92, _⟩ => ⟨S1700000, .i32⟩
  | .hbm, ⟨93, _⟩ => ⟨S1700000, .i1⟩
  | .hbm, ⟨94, _⟩ => ⟨S_, .i32⟩
  | .hbm, ⟨95, _⟩ => ⟨S1700000, .i32⟩
  | .hbm, ⟨96, _⟩ => ⟨S1700000, .i32⟩
  | .hbm, ⟨97, _⟩ => ⟨S1700000, .i32⟩
  | .hbm, ⟨98, _⟩ => ⟨S1700000x1, .i32⟩
  | .hbm, ⟨99, _⟩ => ⟨S1700000x32, .f32⟩
  | .hbm, ⟨100, _⟩ => ⟨S1700000x1, .f32⟩
  | .hbm, ⟨101, _⟩ => ⟨S1700000x32, .f32⟩
  | .hbm, ⟨102, _⟩ => ⟨S1700000x32, .f32⟩
  | .hbm, ⟨103, _⟩ => ⟨S_, .f32⟩
  | .hbm, ⟨104, _⟩ => ⟨S100000x32, .f32⟩
  | .hbm, ⟨105, _⟩ => ⟨S1700000x1, .i32⟩
  | .hbm, ⟨106, _⟩ => ⟨S100000x32, .f32⟩
  | .hbm, ⟨107, _⟩ => ⟨S1x32, .f32⟩
  | .hbm, ⟨108, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S64x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S64x32, .f32⟩
  | .local _ .vmem, ⟨29, _⟩ => ⟨S10000x32, .f32⟩
  | .local _ .vmem, ⟨30, _⟩ => ⟨S10000x32, .f32⟩
  | .local _ .vmem, ⟨31, _⟩ => ⟨S10000x32, .f32⟩
  | .local _ .vmem, ⟨32, _⟩ => ⟨S10000x32, .f32⟩
  | .local _ .vmem, ⟨33, _⟩ => ⟨S1x32, .f32⟩
  | .local _ .vmem, ⟨34, _⟩ => ⟨S10000x32, .f32⟩
  | .local _ .vmem, ⟨35, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_12 : Ref sig .tc := ⟨.hbm, 91, rfl⟩
abbrev main_v65 : Ref sig .tc := ⟨.hbm, 92, rfl⟩
abbrev main_v66 : Ref sig .tc := ⟨.hbm, 93, rfl⟩
abbrev main_c_13 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_14 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg2_1 : Ref sig .tc := ⟨.vmem, 30, rfl⟩
abbrev cc6_stg0_0 : Ref sig .tc := ⟨.vmem, 31, rfl⟩
abbrev cc6_stg0_1 : Ref sig .tc := ⟨.vmem, 32, rfl⟩
abbrev cc6_stg1_0 : Ref sig .tc := ⟨.vmem, 33, rfl⟩
abbrev cc6_stg2_0 : Ref sig .tc := ⟨.vmem, 34, rfl⟩
abbrev cc6_stg2_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem2_1 : DmaSem sig := 30
abbrev cc6_sem0_0 : DmaSem sig := 31
abbrev cc6_sem0_1 : DmaSem sig := 32
abbrev cc6_sem1_0 : DmaSem sig := 33
abbrev cc6_sem2_0 : DmaSem sig := 34
abbrev cc6_sem2_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  reduces_S10000x32_S10000 : S10000x32.Reduces [1] S10000
  shapeCasts_S10000_S10000x1 : S10000.ShapeCasts S10000x1
  broadcasts_S10000x1_S10000x32 : S10000x1.Broadcasts S10000x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x32.size a ≤ S64x32.size a
  hwx5_1 : ∀ i : grid5.Coords, EltTy.bits .f32 = 32 ∨ (Rect.block (s := S64x32) S64x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x32.size a ≤ S100000x32.size a
  hwx5_2 : ∀ i : grid5.Coords, EltTy.bits .f32 = 32 ∨ (Rect.block (s := S100000x32) S10000x32.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x32.size a ≤ S100000x32.size a
  hwx6_0 : ∀ i : grid6.Coords, EltTy.bits .f32 = 32 ∨ (Rect.block (s := S100000x32) S10000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x32.size a ≤ S1x32.size a
  hwx6_1 : ∀ i : grid6.Coords, EltTy.bits .f32 = 32 ∨ (Rect.block (s := S1x32) S1x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x32.size a ≤ S100000x32.size a
  hwx6_2 : ∀ i : grid6.Coords, EltTy.bits .f32 = 32 ∨ (Rect.block (s := S100000x32) S10000x32.size (cc6_transform_2 i) (hinb6_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v63) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S64x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v64) S10000x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v77) S10000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v78) S1x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v79) S10000x32.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000x64 : Shape := ⟨2, ![100000, 64]⟩
abbrev S1x64 : Shape := ⟨2, ![1, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S100000x32 : Shape := ⟨2, ![100000, 32]⟩
abbrev S1700000x32 : Shape := ⟨2, ![1700000, 32]⟩
abbrev S1x32 : Shape := ⟨2, ![1, 32]⟩
abbrev S100000x1 : Shape := ⟨2, ![100000, 1]⟩

abbrev nBuf : Space → Nat
  | .hbm => 202
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x32, .f32⟩
  | 9 => ⟨S32, .f32⟩
  | 10 => ⟨S1x1600000, .i32⟩
  | 11 => ⟨S1600000, .i32⟩
  | 12 => ⟨S1x1600000, .i32⟩
  | 13 => ⟨S1600000, .i32⟩
  | 14 => ⟨S100000x64, .f32⟩
  | 15 => ⟨S1x64, .f32⟩
  | 16 => ⟨S100000x64, .f32⟩
  | 17 => ⟨S100000x64, .f32⟩
  | 18 => ⟨S100000x64, .f32⟩
  | 19 => ⟨S100000, .i32⟩
  | 20 => ⟨S1700000, .i32⟩
  | 21 => ⟨S1700000, .i32⟩
  | 22 => ⟨S_, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x64, .f32⟩
  | 64 => ⟨S1700000x1, .f32⟩
  | 65 => ⟨S1700000x64, .f32⟩
  | 66 => ⟨S1700000x64, .f32⟩
  | 67 => ⟨S_, .f32⟩
  | 68 => ⟨S100000x64, .f32⟩
  | 69 => ⟨S1700000x1, .i32⟩
  | 70 => ⟨S100000x64, .f32⟩
  | 71 => ⟨S1x64, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S100000x64, .f32⟩
  | 78 => ⟨S100000, .i32⟩
  | 79 => ⟨S1700000, .i32⟩
  | 80 => ⟨S1700000, .i32⟩
  | 81 => ⟨S_, .f32⟩
  | 82 => ⟨S1700000, .f32⟩
  | 83 => ⟨S_, .f32⟩
  | 84 => ⟨S100000, .f32⟩
  | 85 => ⟨S1700000x1, .i32⟩
  | 86 => ⟨S100000, .f32⟩
  | 87 => ⟨S_, .f32⟩
  | 88 => ⟨S100000, .f32⟩
  | 89 => ⟨S100000, .i1⟩
  | 90 => ⟨S100000, .f32⟩
  | 91 => ⟨S_, .f32⟩
  | 92 => ⟨S_, .f32⟩
  | 93 => ⟨S100000, .f32⟩
  | 94 => ⟨S100000, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000, .f32⟩
  | 113 => ⟨S1700000, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000x64, .f32⟩
  | 123 => ⟨S1700000x1, .f32⟩
  | 124 => ⟨S1700000x64, .f32⟩
  | 125 => ⟨S1700000x64, .f32⟩
  | 126 => ⟨S_, .f32⟩
  | 127 => ⟨S100000x64, .f32⟩
  | _ => ⟨S100000x128, .f32⟩

abbrev hbmTy0_1 (i : Nat) : BufTy := match i % 128 with
  | 0 => ⟨S1700000x1, .i32⟩
  | 1 => ⟨S100000x64, .f32⟩
  | 2 => ⟨S1x64, .f32⟩
  | 3 => ⟨S100000x64, .f32⟩
  | 4 => ⟨S100000x64, .f32⟩
  | 5 => ⟨S_, .f32⟩
  | 6 => ⟨S100000x64, .f32⟩
  | 7 => ⟨S100000x64, .f32⟩
  | 8 => ⟨S100000x32, .f32⟩
  | 9 => ⟨S100000, .i32⟩
  | 10 => ⟨S1700000, .i32⟩
  | 11 => ⟨S1700000, .i32⟩
  | 12 => ⟨S_, .f32⟩
  | 13 => ⟨S1700000, .f32⟩
  | 14 => ⟨S_, .f32⟩
  | 15 => ⟨S100000, .f32⟩
  | 16 => ⟨S1700000x1, .i32⟩
  | 17 => ⟨S100000, .f32⟩
  | 18 => ⟨S_, .f32⟩
  | 19 => ⟨S100000, .f32⟩
  | 20 => ⟨S100000, .i1⟩
  | 21 => ⟨S100000, .f32⟩
  | 22 => ⟨S_, .f32⟩
  | 23 => ⟨S_, .f32⟩
  | 24 => ⟨S100000, .f32⟩
  | 25 => ⟨S100000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000x32, .f32⟩
  | 54 => ⟨S1700000x1, .f32⟩
  | 55 => ⟨S1700000x32, .f32⟩
  | 56 => ⟨S1700000x32, .f32⟩
  | 57 => ⟨S_, .f32⟩
  | 58 => ⟨S100000x32, .f32⟩
  | 59 => ⟨S1700000x1, .i32⟩
  | 60 => ⟨S100000x32, .f32⟩
  | 61 => ⟨S1x32, .f32⟩
  | 62 => ⟨S100000x32, .f32⟩
  | 63 => ⟨S100000x32, .f32⟩
  | 64 => ⟨S100000x32, .f32⟩
  | 65 => ⟨S_, .f32⟩
  | 66 => ⟨S100000, .f32⟩
  | 67 => ⟨S100000x1, .f32⟩
  | 68 => ⟨S100000x1, .f32⟩
  | 69 => ⟨S_, .f32⟩
  | 70 => ⟨S100000x1, .f32⟩
  | 71 => ⟨S100000x1, .f32⟩
  | 72 => ⟨S100000x32, .f32⟩
  | 73 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_cst_10 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_v63 : Ref sig .tc := ⟨.hbm, 94, rfl⟩
abbrev main_c_13 : Ref sig .tc := ⟨.hbm, 95, rfl⟩
abbrev main_v64 : Ref sig .tc := ⟨.hbm, 96, rfl⟩
abbrev main_v65 : Ref sig .tc := ⟨.hbm, 97, rfl⟩
abbrev main_c_14 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_15 : Ref sig .tc := ⟨.hbm, 104, rfl⟩
abbrev main_v71 : Ref sig .tc := ⟨.hbm, 105, rfl⟩
abbrev main_v72 : Ref sig .tc := ⟨.hbm, 106, rfl⟩
abbrev main_c_16 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_17 : Ref sig .tc := ⟨.hbm, 114, rfl⟩
abbrev main_v79 : Ref sig .tc := ⟨.hbm, 115, rfl⟩
abbrev main_v80 : Ref sig .tc := ⟨.hbm, 116, rfl⟩
abbrev main_c_18 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_19 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_call3_cst : Ref sig .tc := ⟨.hbm, 133, rfl⟩
abbrev main_call3_v0 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_20 : Ref sig .tc := ⟨.hbm, 140, rfl⟩
abbrev main_v100 : Ref sig .tc := ⟨.hbm, 141, rfl⟩
abbrev main_cst_21 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_22 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_23 : Ref sig .tc := ⟨.hbm, 150, rfl⟩
abbrev main_call4_v0 : Ref sig .tc := ⟨.hbm, 151, rfl⟩
abbrev main_call4_v1 : Ref sig .tc := ⟨.hbm, 152, rfl⟩
abbrev main_v107 : Ref sig .tc := ⟨.hbm, 153, rfl⟩
abbrev main_c_24 : Ref sig .tc := ⟨.hbm, 154, rfl⟩
abbrev main_v108 : Ref sig .tc := ⟨.hbm, 155, rfl⟩
abbrev main_v109 : Ref sig .tc := ⟨.hbm, 156, rfl⟩
abbrev main_c_25 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_c_26 : Ref sig .tc := ⟨.hbm, 163, rfl⟩
abbrev main_v115 : Ref sig .tc := ⟨.hbm, 164, rfl⟩
abbrev main_v116 : Ref sig .tc := ⟨.hbm, 165, rfl⟩
abbrev main_c_27 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_c_28 : Ref sig .tc := ⟨.hbm, 173, rfl⟩
abbrev main_v123 : Ref sig .tc := ⟨.hbm, 174, rfl⟩
abbrev main_v124 : Ref sig .tc := ⟨.hbm, 175, rfl⟩
abbrev main_c_29 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_cst_30 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_cst_31 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_cst_32 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelRun.lean ====
/-
  The idealized kernel's run with its result named.

  The program is seven kernel launches among stretches of host operations.  Its run is followed
  segment by segment from the launch memory: after a stretch of host operations every buffer holds
  what the operations compute from the contents before it; after a kernel launch the launch's arrays
  hold what its write-backs leave and every other buffer is as before.  Folding this from the launch
  memory gives the contents of every buffer at the return; here the run is stated with the result
  array at that fold, and the argument arrays unchanged.
-/
import proofs.«179656_j15384572854543_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the fold's contents
    of its buffer, and the argument arrays end as launched. -/
theorem run_result : θ_run defs (onTc (τ := τ) (main (F := F))) ⟨m, fun _ => 0, ρ⟩ (fun r => ∀ c : Dev nD,
      r.2.mem ((c.tc : Thread nD τ).loc main_v79) = W13 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v79 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c)⟩)

end Cert.KernelIdeal.Hand

end
-- ==== Proof.Fold.lean ====
/-
  Buffers carried along the idealized kernel's run.

  The run's contents at each segment boundary are a fold from the launch memory.  A stretch of host
  operations changes only the buffers its operations write; a kernel launch changes only its output
  array.  So a buffer that no segment in a range writes holds at the end of the range what it held at
  its start: each argument array up to the segment that reads it, and the concatenated edge-index
  arrays and the per-edge normalisation, computed once before the first launch, up to each of the three
  aggregations that read them.
-/
import proofs.«179656_j15384572854543_1_alg».proof.Proof.Gen.KernelIdeal.Frame
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg) (c : Dev nD)

/-- A stretch of host operations leaves a buffer none of its operations writes as it was. -/
macro "stretch_keeps" : tactic => `(tactic| (
  refine StableHlo.after_of_forall_not_mem _ _ (List.forall_iff_forall_mem.mp ?_)
  simp only [hostOps0, hostOps0_1, hostOps0_2, hostOps2, hostOps4, hostOps6, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

theorem keep_arg0_0_3 : W3 m ρ c (Proc.devRef .tc main_arg0) = W0 m ρ c (Proc.devRef .tc main_arg0) :=
  calc W3 m ρ c (Proc.devRef .tc main_arg0)
    _ = W2 m ρ c (Proc.devRef .tc main_arg0) := (by stretch_keeps)
    _ = W1 m ρ c (Proc.devRef .tc main_arg0) := (by stretch_keeps)
    _ = W0 m ρ c (Proc.devRef .tc main_arg0) := (by stretch_keeps)

theorem keep_arg2_0_3 : W3 m ρ c (Proc.devRef .tc main_arg2) = W0 m ρ c (Proc.devRef .tc main_arg2) :=
  calc W3 m ρ c (Proc.devRef .tc main_arg2)
    _ = W2 m ρ c (Proc.devRef .tc main_arg2) := (by stretch_keeps)
    _ = W1 m ρ c (Proc.devRef .tc main_arg2) := (by stretch_keeps)
    _ = W0 m ρ c (Proc.devRef .tc main_arg2) := (by stretch_keeps)

theorem keep_arg3_0_2 : W2 m ρ c (Proc.devRef .tc main_arg3) = W0 m ρ c (Proc.devRef .tc main_arg3) :=
  calc W2 m ρ c (Proc.devRef .tc main_arg3)
    _ = W1 m ρ c (Proc.devRef .tc main_arg3) := (by stretch_keeps)
    _ = W0 m ρ c (Proc.devRef .tc main_arg3) := (by stretch_keeps)

theorem keep_arg4_0_4 : W4 m ρ c (Proc.devRef .tc main_arg4) = W0 m ρ c (Proc.devRef .tc main_arg4) :=
  calc W4 m ρ c (Proc.devRef .tc main_arg4)
    _ = W3 m ρ c (Proc.devRef .tc main_arg4) := (W4_of_ne m ρ c main_arg4 (by decide))
    _ = W2 m ρ c (Proc.devRef .tc main_arg4) := (by stretch_keeps)
    _ = W1 m ρ c (Proc.devRef .tc main_arg4) := (by stretch_keeps)
    _ = W0 m ρ c (Proc.devRef .tc main_arg4) := (by stretch_keeps)

theorem keep_arg5_0_5 : W5 m ρ c (Proc.devRef .tc main_arg5) = W0 m ρ c (Proc.devRef .tc main_arg5) :=
  calc W5 m ρ c (Proc.devRef .tc main_arg5)
    _ = W4 m ρ c (Proc.devRef .tc main_arg5) := (W5_of_ne m ρ c main_arg5 (by decide))
    _ = W3 m ρ c (Proc.devRef .tc main_arg5) := (W4_of_ne m ρ c main_arg5 (by decide))
    _ = W2 m ρ c (Proc.devRef .tc main_arg5) := (by stretch_keeps)
    _ = W1 m ρ c (Proc.devRef .tc main_arg5) := (by stretch_keeps)
    _ = W0 m ρ c (Proc.devRef .tc main_arg5) := (by stretch_keeps)

theorem keep_arg6_0_7 : W7 m ρ c (Proc.devRef .tc main_arg6) = W0 m ρ c (Proc.devRef .tc main_arg6) :=
  calc W7 m ρ c (Proc.devRef .tc main_arg6)
    _ = W6 m ρ c (Proc.devRef .tc main_arg6) := (W7_of_ne m ρ c main_arg6 (by decide))
    _ = W5 m ρ c (Proc.devRef .tc main_arg6) := (by stretch_keeps)
    _ = W4 m ρ c (Proc.devRef .tc main_arg6) := (W5_of_ne m ρ c main_arg6 (by decide))
    _ = W3 m ρ c (Proc.devRef .tc main_arg6) := (W4_of_ne m ρ c main_arg6 (by decide))
    _ = W2 m ρ c (Proc.devRef .tc main_arg6) := (by stretch_keeps)
    _ = W1 m ρ c (Proc.devRef .tc main_arg6) := (by stretch_keeps)
    _ = W0 m ρ c (Proc.devRef .tc main_arg6) := (by stretch_keeps)

theorem keep_arg7_0_8 : W8 m ρ c (Proc.devRef .tc main_arg7) = W0 m ρ c (Proc.devRef .tc main_arg7) :=
  calc W8 m ρ c (Proc.devRef .tc main_arg7)
    _ = W7 m ρ c (Proc.devRef .tc main_arg7) := (W8_of_ne m ρ c main_arg7 (by decide))
    _ = W6 m ρ c (Proc.devRef .tc main_arg7) := (W7_of_ne m ρ c main_arg7 (by decide))
    _ = W5 m ρ c (Proc.devRef .tc main_arg7) := (by stretch_keeps)
    _ = W4 m ρ c (Proc.devRef .tc main_arg7) := (W5_of_ne m ρ c main_arg7 (by decide))
    _ = W3 m ρ c (Proc.devRef .tc main_arg7) := (W4_of_ne m ρ c main_arg7 (by decide))
    _ = W2 m ρ c (Proc.devRef .tc main_arg7) := (by stretch_keeps)
    _ = W1 m ρ c (Proc.devRef .tc main_arg7) := (by stretch_keeps)
    _ = W0 m ρ c (Proc.devRef .tc main_arg7) := (by stretch_keeps)

theorem keep_arg8_0_10 : W10 m ρ c (Proc.devRef .tc main_arg8) = W0 m ρ c (Proc.devRef .tc main_arg8) :=
  calc W10 m ρ c (Proc.devRef .tc main_arg8)
    _ = W9 m ρ c (Proc.devRef .tc main_arg8) := (W10_of_ne m ρ c main_arg8 (by decide))
    _ = W8 m ρ c (Proc.devRef .tc main_arg8) := (by stretch_keeps)
    _ = W7 m ρ c (Proc.devRef .tc main_arg8) := (W8_of_ne m ρ c main_arg8 (by decide))
    _ = W6 m ρ c (Proc.devRef .tc main_arg8) := (W7_of_ne m ρ c main_arg8 (by decide))
    _ = W5 m ρ c (Proc.devRef .tc main_arg8) := (by stretch_keeps)
    _ = W4 m ρ c (Proc.devRef .tc main_arg8) := (W5_of_ne m ρ c main_arg8 (by decide))
    _ = W3 m ρ c (Proc.devRef .tc main_arg8) := (W4_of_ne m ρ c main_arg8 (by decide))
    _ = W2 m ρ c (Proc.devRef .tc main_arg8) := (by stretch_keeps)
    _ = W1 m ρ c (Proc.devRef .tc main_arg8) := (by stretch_keeps)
    _ = W0 m ρ c (Proc.devRef .tc main_arg8) := (by stretch_keeps)

theorem keep_arg9_0_11 : W11 m ρ c (Proc.devRef .tc main_arg9) = W0 m ρ c (Proc.devRef .tc main_arg9) :=
  calc W11 m ρ c (Proc.devRef .tc main_arg9)
    _ = W10 m ρ c (Proc.devRef .tc main_arg9) := (W11_of_ne m ρ c main_arg9 (by decide))
    _ = W9 m ρ c (Proc.devRef .tc main_arg9) := (W10_of_ne m ρ c main_arg9 (by decide))
    _ = W8 m ρ c (Proc.devRef .tc main_arg9) := (by stretch_keeps)
    _ = W7 m ρ c (Proc.devRef .tc main_arg9) := (W8_of_ne m ρ c main_arg9 (by decide))
    _ = W6 m ρ c (Proc.devRef .tc main_arg9) := (W7_of_ne m ρ c main_arg9 (by decide))
    _ = W5 m ρ c (Proc.devRef .tc main_arg9) := (by stretch_keeps)
    _ = W4 m ρ c (Proc.devRef .tc main_arg9) := (W5_of_ne m ρ c main_arg9 (by decide))
    _ = W3 m ρ c (Proc.devRef .tc main_arg9) := (W4_of_ne m ρ c main_arg9 (by decide))
    _ = W2 m ρ c (Proc.devRef .tc main_arg9) := (by stretch_keeps)
    _ = W1 m ρ c (Proc.devRef .tc main_arg9) := (by stretch_keeps)
    _ = W0 m ρ c (Proc.devRef .tc main_arg9) := (by stretch_keeps)

theorem keep_v5_3_5 : W5 m ρ c (Proc.devRef .tc main_v5) = W3 m ρ c (Proc.devRef .tc main_v5) :=
  calc W5 m ρ c (Proc.devRef .tc main_v5)
    _ = W4 m ρ c (Proc.devRef .tc main_v5) := (W5_of_ne m ρ c main_v5 (by decide))
    _ = W3 m ρ c (Proc.devRef .tc main_v5) := (W4_of_ne m ρ c main_v5 (by decide))

theorem keep_v6_3_5 : W5 m ρ c (Proc.devRef .tc main_v6) = W3 m ρ c (Proc.devRef .tc main_v6) :=
  calc W5 m ρ c (Proc.devRef .tc main_v6)
    _ = W4 m ρ c (Proc.devRef .tc main_v6) := (W5_of_ne m ρ c main_v6 (by decide))
    _ = W3 m ρ c (Proc.devRef .tc main_v6) := (W4_of_ne m ρ c main_v6 (by decide))

theorem keep_v29_3_5 : W5 m ρ c (Proc.devRef .tc main_v29) = W3 m ρ c (Proc.devRef .tc main_v29) :=
  calc W5 m ρ c (Proc.devRef .tc main_v29)
    _ = W4 m ρ c (Proc.devRef .tc main_v29) := (W5_of_ne m ρ c main_v29 (by decide))
    _ = W3 m ρ c (Proc.devRef .tc main_v29) := (W4_of_ne m ρ c main_v29 (by decide))

theorem keep_v5_3_8 : W8 m ρ c (Proc.devRef .tc main_v5) = W3 m ρ c (Proc.devRef .tc main_v5) :=
  calc W8 m ρ c (Proc.devRef .tc main_v5)
    _ = W7 m ρ c (Proc.devRef .tc main_v5) := (W8_of_ne m ρ c main_v5 (by decide))
    _ = W6 m ρ c (Proc.devRef .tc main_v5) := (W7_of_ne m ρ c main_v5 (by decide))
    _ = W5 m ρ c (Proc.devRef .tc main_v5) := (by stretch_keeps)
    _ = W4 m ρ c (Proc.devRef .tc main_v5) := (W5_of_ne m ρ c main_v5 (by decide))
    _ = W3 m ρ c (Proc.devRef .tc main_v5) := (W4_of_ne m ρ c main_v5 (by decide))

theorem keep_v6_3_8 : W8 m ρ c (Proc.devRef .tc main_v6) = W3 m ρ c (Proc.devRef .tc main_v6) :=
  calc W8 m ρ c (Proc.devRef .tc main_v6)
    _ = W7 m ρ c (Proc.devRef .tc main_v6) := (W8_of_ne m ρ c main_v6 (by decide))
    _ = W6 m ρ c (Proc.devRef .tc main_v6) := (W7_of_ne m ρ c main_v6 (by decide))
    _ = W5 m ρ c (Proc.devRef .tc main_v6) := (by stretch_keeps)
    _ = W4 m ρ c (Proc.devRef .tc main_v6) := (W5_of_ne m ρ c main_v6 (by decide))
    _ = W3 m ρ c (Proc.devRef .tc main_v6) := (W4_of_ne m ρ c main_v6 (by decide))

theorem keep_v29_3_8 : W8 m ρ c (Proc.devRef .tc main_v29) = W3 m ρ c (Proc.devRef .tc main_v29) :=
  calc W8 m ρ c (Proc.devRef .tc main_v29)
    _ = W7 m ρ c (Proc.devRef .tc main_v29) := (W8_of_ne m ρ c main_v29 (by decide))
    _ = W6 m ρ c (Proc.devRef .tc main_v29) := (W7_of_ne m ρ c main_v29 (by decide))
    _ = W5 m ρ c (Proc.devRef .tc main_v29) := (by stretch_keeps)
    _ = W4 m ρ c (Proc.devRef .tc main_v29) := (W5_of_ne m ρ c main_v29 (by decide))
    _ = W3 m ρ c (Proc.devRef .tc main_v29) := (W4_of_ne m ρ c main_v29 (by decide))

theorem keep_v5_3_11 : W11 m ρ c (Proc.devRef .tc main_v5) = W3 m ρ c (Proc.devRef .tc main_v5) :=
  calc W11 m ρ c (Proc.devRef .tc main_v5)
    _ = W10 m ρ c (Proc.devRef .tc main_v5) := (W11_of_ne m ρ c main_v5 (by decide))
    _ = W9 m ρ c (Proc.devRef .tc main_v5) := (W10_of_ne m ρ c main_v5 (by decide))
    _ = W8 m ρ c (Proc.devRef .tc main_v5) := (by stretch_keeps)
    _ = W7 m ρ c (Proc.devRef .tc main_v5) := (W8_of_ne m ρ c main_v5 (by decide))
    _ = W6 m ρ c (Proc.devRef .tc main_v5) := (W7_of_ne m ρ c main_v5 (by decide))
    _ = W5 m ρ c (Proc.devRef .tc main_v5) := (by stretch_keeps)
    _ = W4 m ρ c (Proc.devRef .tc main_v5) := (W5_of_ne m ρ c main_v5 (by decide))
    _ = W3 m ρ c (Proc.devRef .tc main_v5) := (W4_of_ne m ρ c main_v5 (by decide))

theorem keep_v6_3_11 : W11 m ρ c (Proc.devRef .tc main_v6) = W3 m ρ c (Proc.devRef .tc main_v6) :=
  calc W11 m ρ c (Proc.devRef .tc main_v6)
    _ = W10 m ρ c (Proc.devRef .tc main_v6) := (W11_of_ne m ρ c main_v6 (by decide))
    _ = W9 m ρ c (Proc.devRef .tc main_v6) := (W10_of_ne m ρ c main_v6 (by decide))
    _ = W8 m ρ c (Proc.devRef .tc main_v6) := (by stretch_keeps)
    _ = W7 m ρ c (Proc.devRef .tc main_v6) := (W8_of_ne m ρ c main_v6 (by decide))
    _ = W6 m ρ c (Proc.devRef .tc main_v6) := (W7_of_ne m ρ c main_v6 (by decide))
    _ = W5 m ρ c (Proc.devRef .tc main_v6) := (by stretch_keeps)
    _ = W4 m ρ c (Proc.devRef .tc main_v6) := (W5_of_ne m ρ c main_v6 (by decide))
    _ = W3 m ρ c (Proc.devRef .tc main_v6) := (W4_of_ne m ρ c main_v6 (by decide))

theorem keep_v29_3_11 : W11 m ρ c (Proc.devRef .tc main_v29) = W3 m ρ c (Proc.devRef .tc main_v29) :=
  calc W11 m ρ c (Proc.devRef .tc main_v29)
    _ = W10 m ρ c (Proc.devRef .tc main_v29) := (W11_of_ne m ρ c main_v29 (by decide))
    _ = W9 m ρ c (Proc.devRef .tc main_v29) := (W10_of_ne m ρ c main_v29 (by decide))
    _ = W8 m ρ c (Proc.devRef .tc main_v29) := (by stretch_keeps)
    _ = W7 m ρ c (Proc.devRef .tc main_v29) := (W8_of_ne m ρ c main_v29 (by decide))
    _ = W6 m ρ c (Proc.devRef .tc main_v29) := (W7_of_ne m ρ c main_v29 (by decide))
    _ = W5 m ρ c (Proc.devRef .tc main_v29) := (by stretch_keeps)
    _ = W4 m ρ c (Proc.devRef .tc main_v29) := (W5_of_ne m ρ c main_v29 (by decide))
    _ = W3 m ρ c (Proc.devRef .tc main_v29) := (W4_of_ne m ρ c main_v29 (by decide))

end Cert.KernelIdeal.Hand

end
-- ==== Proof.Stretch.lean ====
/-
  The host stretches of the idealized kernel's run, read as values.

  Between its launches the kernel runs stretches of host operations.  Before the first launch three
  stretches build, from the edge list alone, the two index lists (each row of the edge list followed
  by the self loops `0 … 99999`), every node's degree as a sum of ones over the edges into it, the
  per-node factor (the reciprocal root of the degree where the degree is positive, zero elsewhere) and
  the per-edge normalisation (the product of the factors of an edge's two end nodes); these are the
  reference's values of the same names, operation for operation.  Before the third, fifth and seventh
  launches a stretch aggregates the previous launch's output over the edges (a gather of the source
  rows, each scaled by its edge's normalisation, added into the destination rows of a zero array) and
  views a bias vector as one row.  The aggregation is kept as the host operations both programs share
  (`agg64`, `agg32`); a bias row read at `(0, q)` is the bias vector at `q`.

  Each stretch is first read over ANY contents it may start from (it rewrites only the buffers its
  operations write, each to its operation's value of the buffers it reads), then at the run's contents
  at the segment boundaries, carrying along what a stretch or a launch does not write.
-/
import proofs.«179656_j15384572854543_1_alg».proof.Proof.Gen.KernelIdeal.Frame
import proofs.«179656_j15384572854543_1_alg».proof.Proof.RefRead
import proofs.«179656_j15384572854543_1_alg».proof.Proof.Fold
import Idealize.ShloMosaic.Lib.StableHlo.Run
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

open Cert.ReferenceIdeal.ReadP (val_main_v10 val_main_v11 val_main_v17 val_main_v18 val_main_cst_2 val_main_v19 val_main_v34)

/-! ## Each stretch, over any contents it may start from -/

section Generic

variable (Vl : Valuation τ sig (Elt Ideal))

/-- After the first stretch the two index buffers hold the reference's concatenated source and destination
    indices: each row of the edge list followed by the self loops `0 … 99999`. -/
theorem src_of : StableHlo.after hostOps0 Vl (Proc.devRef .tc main_v5)
    = val_main_v10 (F := Ideal) (Vl (Proc.devRef .tc main_arg1)) := by
  after_results
  rfl

theorem dst_of : StableHlo.after hostOps0 Vl (Proc.devRef .tc main_v6)
    = val_main_v11 (F := Ideal) (Vl (Proc.devRef .tc main_arg1)) := by
  after_results
  rfl

/-- After the first stretch: whether a node's degree (the count of the edges into it, as a sum of ones) is
    positive, the reciprocal root of the degree, and the zero the next stretch selects. -/
theorem degpos_of : StableHlo.after hostOps0 Vl (Proc.devRef .tc main_v12)
    = val_main_v17 (F := Ideal) (Vl (Proc.devRef .tc main_arg1)) := by
  after_results_simp
  rfl

theorem degrsqrt_of : StableHlo.after hostOps0 Vl (Proc.devRef .tc main_v13)
    = val_main_v18 (F := Ideal) (Vl (Proc.devRef .tc main_arg1)) := by
  after_results_simp
  rfl

theorem zero_of : StableHlo.after hostOps0 Vl (Proc.devRef .tc main_cst_2)
    = val_main_cst_2 (F := Ideal) := by
  after_results_simp
  rfl

/-- The second stretch: the per-node factor, the reciprocal root of the degree where the degree is positive
    and zero elsewhere, from what the first stretch left. -/
theorem node_raw : StableHlo.after hostOps0_1 Vl (Proc.devRef .tc main_v14)
    = select (Vl (Proc.devRef .tc main_v12)) (Vl (Proc.devRef .tc main_v13))
        (broadcastInDim S100000 ![] bcast_S_S100000 (id (Vl (Proc.devRef .tc main_cst_2)))) := by
  after_results_simp
  rfl

theorem node_of (a1 : (⟨S2x1600000, .i32⟩ : BufTy).Contents (Elt Ideal))
    (h12 : Vl (Proc.devRef .tc main_v12) = val_main_v17 (F := Ideal) a1)
    (h13 : Vl (Proc.devRef .tc main_v13) = val_main_v18 (F := Ideal) a1)
    (hz : Vl (Proc.devRef .tc main_cst_2) = val_main_cst_2 (F := Ideal)) :
    StableHlo.after hostOps0_1 Vl (Proc.devRef .tc main_v14) = val_main_v19 (F := Ideal) a1 := by
  refine (node_raw Vl).trans ?_
  rw [h12, h13, hz]
  rfl

set_option maxHeartbeats 4000000 in
/-- The third stretch: the per-edge normalisation, the product of the factors of an edge's two end nodes,
    from the per-node factor and the two index buffers. -/
theorem norm_of (a1 : (⟨S2x1600000, .i32⟩ : BufTy).Contents (Elt Ideal))
    (h14 : Vl (Proc.devRef .tc main_v14) = val_main_v19 (F := Ideal) a1)
    (h5 : Vl (Proc.devRef .tc main_v5) = val_main_v10 (F := Ideal) a1)
    (h6 : Vl (Proc.devRef .tc main_v6) = val_main_v11 (F := Ideal) a1) :
    StableHlo.after hostOps0_2 Vl (Proc.devRef .tc main_v29) = val_main_v34 (F := Ideal) a1 := by
  after_results_simp
  rw [h14, h5, h6]
  rfl

end Generic

/-! ## The aggregation over the edges, as the host operations both programs share -/

/-- The aggregation of a 64-wide array over the edges: for every edge the source row (a negative index wrapped
    once) scaled by the edge's normalisation, added into the destination row of a zero array.  The host
    operations themselves, on the array, the two index lists and the normalisation. -/
def agg64 (hl : (⟨S100000x64, .f32⟩ : BufTy).Contents (Elt Ideal)) (s d : (⟨S1700000, .i32⟩ : BufTy).Contents (Elt Ideal))
    (nrm : (⟨S1700000, .f32⟩ : BufTy).Contents (Elt Ideal)) : (⟨S100000x64, .f32⟩ : BufTy).Contents (Elt Ideal) :=
  Host.scatterAdd scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 d)
    (mulf
      (Host.gather gather_S100000x64_S1700000x1_S1700000x64_1_0_n_n_0_1_164 hl
        (broadcastInDim S1700000x1 ![0] bcast_S1700000_S1700000x1_0
          (select (cmpi .slt s (broadcastInDim S1700000 ![] bcast_S_S1700000 (constantI S_ 32 0#32)))
            (addi s (broadcastInDim S1700000 ![] bcast_S_S1700000 (constantI S_ 32 100000#32))) s)))
      (broadcastInDim S1700000x64 ![0, 1] bcast_S1700000x1_S1700000x64_0_1
        (broadcastInDim S1700000x1 ![0] bcast_S1700000_S1700000x1_0 nrm)))

/-- The same aggregation of a 32-wide array. -/
def agg32 (hl : (⟨S100000x32, .f32⟩ : BufTy).Contents (Elt Ideal)) (s d : (⟨S1700000, .i32⟩ : BufTy).Contents (Elt Ideal))
    (nrm : (⟨S1700000, .f32⟩ : BufTy).Contents (Elt Ideal)) : (⟨S100000x32, .f32⟩ : BufTy).Contents (Elt Ideal) :=
  Host.scatterAdd scatter_S100000x32_S1700000x1_S1700000x32_1_0_0_1
    (broadcastInDim S100000x32 ![] bcast_S_S100000x32 (constant (F := Ideal) S_ .f32 0x00000000#32))
    (broadcastInDim S1700000x1 ![0] bcast_S1700000_S1700000x1_0 d)
    (mulf
      (Host.gather gather_S100000x32_S1700000x1_S1700000x32_1_0_n_n_0_1_132 hl
        (broadcastInDim S1700000x1 ![0] bcast_S1700000_S1700000x1_0
          (select (cmpi .slt s (broadcastInDim S1700000 ![] bcast_S_S1700000 (constantI S_ 32 0#32)))
            (addi s (broadcastInDim S1700000 ![] bcast_S_S1700000 (constantI S_ 32 100000#32))) s)))
      (broadcastInDim S1700000x32 ![0, 1] bcast_S1700000x1_S1700000x32_0_1
        (broadcastInDim S1700000x1 ![0] bcast_S1700000_S1700000x1_0 nrm)))

section GenericAgg

variable (Vl : Valuation τ sig (Elt Ideal))

set_option maxHeartbeats 4000000 in
/-- The stretch before the third launch leaves, in its aggregate, the aggregation of the second launch's
    output. -/
theorem agg2_of : StableHlo.after hostOps2 Vl (Proc.devRef .tc main_v45)
    = agg64 (Vl (Proc.devRef .tc main_v32)) (Vl (Proc.devRef .tc main_v5)) (Vl (Proc.devRef .tc main_v6))
        (Vl (Proc.devRef .tc main_v29)) := by
  after_results_simp
  rfl

set_option maxHeartbeats 4000000 in
theorem agg4_of : StableHlo.after hostOps4 Vl (Proc.devRef .tc main_v61)
    = agg64 (Vl (Proc.devRef .tc main_v48)) (Vl (Proc.devRef .tc main_v5)) (Vl (Proc.devRef .tc main_v6))
        (Vl (Proc.devRef .tc main_v29)) := by
  after_results_simp
  rfl

set_option maxHeartbeats 4000000 in
theorem agg6_of : StableHlo.after hostOps6 Vl (Proc.devRef .tc main_v77)
    = agg32 (Vl (Proc.devRef .tc main_v64)) (Vl (Proc.devRef .tc main_v5)) (Vl (Proc.devRef .tc main_v6))
        (Vl (Proc.devRef .tc main_v29)) := by
  after_results_simp
  rfl

/-! ## The bias rows: a vector viewed as one row -/

set_option maxHeartbeats 4000000 in
theorem bias0_of : StableHlo.after hostOps0_2 Vl (Proc.devRef .tc main_v30)
    = shapeCast S1x64 (Vl (Proc.devRef .tc main_arg3)) shapeCasts_S64_S1x64 := by
  after_results_simp
  rfl

set_option maxHeartbeats 4000000 in
theorem bias2_of : StableHlo.after hostOps2 Vl (Proc.devRef .tc main_v46)
    = shapeCast S1x64 (Vl (Proc.devRef .tc main_arg5)) shapeCasts_S64_S1x64 := by
  after_results_simp
  rfl

set_option maxHeartbeats 4000000 in
theorem bias4_of : StableHlo.after hostOps4 Vl (Proc.devRef .tc main_v62)
    = shapeCast S1x64 (Vl (Proc.devRef .tc main_arg7)) shapeCasts_S64_S1x64 := by
  after_results_simp
  rfl

set_option maxHeartbeats 4000000 in
theorem bias6_of : StableHlo.after hostOps6 Vl (Proc.devRef .tc main_v78)
    = shapeCast S1x32 (Vl (Proc.devRef .tc main_arg9)) shapeCasts_S32_S1x32 := by
  after_results_simp
  rfl

end GenericAgg

/-- A vector of 64 viewed as one row reads, at entry (0, q), its entry q. -/
theorem row64 (v : S64.Idx → EReal) (q : Fin 64) :
    shapeCast S1x64 v shapeCasts_S64_S1x64 (ix2 (0 : Fin 1) q) = v (ix1 q) := by
  refine shapeCast_apply v _ (ix2 (0 : Fin 1) q) (ix1 q) ?_
  rw [Shape.rowMajor_val_one, Shape.rowMajor_val_two]
  show q.val = 0 * 64 + q.val
  omega

/-- A vector of 32 viewed as one row reads, at entry (0, q), its entry q. -/
theorem row32 (v : S32.Idx → EReal) (q : Fin 32) :
    shapeCast S1x32 v shapeCasts_S32_S1x32 (ix2 (0 : Fin 1) q) = v (ix1 q) := by
  refine shapeCast_apply v _ (ix2 (0 : Fin 1) q) (ix1 q) ?_
  rw [Shape.rowMajor_val_one, Shape.rowMajor_val_two]
  show q.val = 0 * 32 + q.val
  omega

/-! ## The run's contents at the segment boundaries -/

variable (m : (ℓ : Loc nD τ sig) → Buf (Elt Ideal) ℓ) (ρ : Dev nD → PrngReg) (c : Dev nD)

theorem src_at1 : W1 m ρ c (Proc.devRef .tc main_v5) = val_main_v10 (F := Ideal) (m ((c : Thread nD τ).loc main_arg1)) :=
  src_of (W0 m ρ c)
theorem dst_at1 : W1 m ρ c (Proc.devRef .tc main_v6) = val_main_v11 (F := Ideal) (m ((c : Thread nD τ).loc main_arg1)) :=
  dst_of (W0 m ρ c)

theorem src_at2 : W2 m ρ c (Proc.devRef .tc main_v5) = val_main_v10 (F := Ideal) (m ((c : Thread nD τ).loc main_arg1)) :=
  calc W2 m ρ c (Proc.devRef .tc main_v5)
    _ = W1 m ρ c (Proc.devRef .tc main_v5) := (by stretch_keeps)
    _ = _ := src_at1 m ρ c
theorem dst_at2 : W2 m ρ c (Proc.devRef .tc main_v6) = val_main_v11 (F := Ideal) (m ((c : Thread nD τ).loc main_arg1)) :=
  calc W2 m ρ c (Proc.devRef .tc main_v6)
    _ = W1 m ρ c (Proc.devRef .tc main_v6) := (by stretch_keeps)
    _ = _ := dst_at1 m ρ c

/-- The per-node factor after the second stretch. -/
theorem node_at2 : W2 m ρ c (Proc.devRef .tc main_v14) = val_main_v19 (F := Ideal) (m ((c : Thread nD τ).loc main_arg1)) :=
  node_of (W1 m ρ c) (m ((c : Thread nD τ).loc main_arg1)) (degpos_of (W0 m ρ c)) (degrsqrt_of (W0 m ρ c)) (zero_of (W0 m ρ c))

/-- Before the first launch: the concatenated source indices, -/
theorem src_at3 : W3 m ρ c (Proc.devRef .tc main_v5) = val_main_v10 (F := Ideal) (m ((c : Thread nD τ).loc main_arg1)) :=
  calc W3 m ρ c (Proc.devRef .tc main_v5)
    _ = W2 m ρ c (Proc.devRef .tc main_v5) := (by stretch_keeps)
    _ = _ := src_at2 m ρ c

/-- the concatenated destination indices, -/
theorem dst_at3 : W3 m ρ c (Proc.devRef .tc main_v6) = val_main_v11 (F := Ideal) (m ((c : Thread nD τ).loc main_arg1)) :=
  calc W3 m ρ c (Proc.devRef .tc main_v6)
    _ = W2 m ρ c (Proc.devRef .tc main_v6) := (by stretch_keeps)
    _ = _ := dst_at2 m ρ c

/-- and the per-edge normalisation are the reference's. -/
theorem norm_at3 : W3 m ρ c (Proc.devRef .tc main_v29) = val_main_v34 (F := Ideal) (m ((c : Thread nD τ).loc main_arg1)) :=
  norm_of (W2 m ρ c) (m ((c : Thread nD τ).loc main_arg1)) (node_at2 m ρ c) (src_at2 m ρ c) (dst_at2 m ρ c)

/-- The three aggregations, of the second, fourth and sixth launches' outputs. -/
theorem agg_at6 : W6 m ρ c (Proc.devRef .tc main_v45)
    = agg64 (W5 m ρ c (Proc.devRef .tc main_v32)) (W5 m ρ c (Proc.devRef .tc main_v5)) (W5 m ρ c (Proc.devRef .tc main_v6))
        (W5 m ρ c (Proc.devRef .tc main_v29)) :=
  agg2_of (W5 m ρ c)
theorem agg_at9 : W9 m ρ c (Proc.devRef .tc main_v61)
    = agg64 (W8 m ρ c (Proc.devRef .tc main_v48)) (W8 m ρ c (Proc.devRef .tc main_v5)) (W8 m ρ c (Proc.devRef .tc main_v6))
        (W8 m ρ c (Proc.devRef .tc main_v29)) :=
  agg4_of (W8 m ρ c)
theorem agg_at12 : W12 m ρ c (Proc.devRef .tc main_v77)
    = agg32 (W11 m ρ c (Proc.devRef .tc main_v64)) (W11 m ρ c (Proc.devRef .tc main_v5)) (W11 m ρ c (Proc.devRef .tc main_v6))
        (W11 m ρ c (Proc.devRef .tc main_v29)) :=
  agg6_of (W11 m ρ c)

/-- The four bias rows are the bias arguments, entry by entry. -/
theorem bias0_at3 : (fun i : S64.Idx => (W3 m ρ c (Proc.devRef .tc main_v30) : S1x64.Idx → EReal) (ix2 0 (i 0)))
    = m ((c : Thread nD τ).loc main_arg3) := by
  funext i
  obtain ⟨q, rfl⟩ : ∃ q : Fin 64, i = ix1 q := ⟨i 0, eq_ix1 i⟩
  refine (congrFun (bias0_of (W2 m ρ c)) (ix2 (0 : Fin 1) q)).trans ?_
  rw [row64, keep_arg3_0_2]

theorem bias2_at6 : (fun i : S64.Idx => (W6 m ρ c (Proc.devRef .tc main_v46) : S1x64.Idx → EReal) (ix2 0 (i 0)))
    = m ((c : Thread nD τ).loc main_arg5) := by
  funext i
  obtain ⟨q, rfl⟩ : ∃ q : Fin 64, i = ix1 q := ⟨i 0, eq_ix1 i⟩
  refine (congrFun (bias2_of (W5 m ρ c)) (ix2 (0 : Fin 1) q)).trans ?_
  rw [row64, keep_arg5_0_5]

theorem bias4_at9 : (fun i : S64.Idx => (W9 m ρ c (Proc.devRef .tc main_v62) : S1x64.Idx → EReal) (ix2 0 (i 0)))
    = m ((c : Thread nD τ).loc main_arg7) := by
  funext i
  obtain ⟨q, rfl⟩ : ∃ q : Fin 64, i = ix1 q := ⟨i 0, eq_ix1 i⟩
  refine (congrFun (bias4_of (W8 m ρ c)) (ix2 (0 : Fin 1) q)).trans ?_
  rw [row64, keep_arg7_0_8]

theorem bias6_at12 : (fun i : S32.Idx => (W12 m ρ c (Proc.devRef .tc main_v78) : S1x32.Idx → EReal) (ix2 0 (i 0)))
    = m ((c : Thread nD τ).loc main_arg9) := by
  funext i
  obtain ⟨q, rfl⟩ : ∃ q : Fin 32, i = ix1 q := ⟨i 0, eq_ix1 i⟩
  refine (congrFun (bias6_of (W11 m ρ c)) (ix2 (0 : Fin 1) q)).trans ?_
  rw [row32, keep_arg9_0_11]

end Cert.KernelIdeal.Hand

end
-- ==== Proof.Spec.lean ====
/-
  The common mathematics of the two programs, as whole-array functions over the extended reals.

  A three-layer graph convolution network on 100000 nodes.  With `x` the node features, every layer is
  a product of the rows of its input with a weight matrix (a sum over the shared axis), an aggregation
  over the edges (a gather of source rows scaled by the edge's normalisation, summed into the
  destination rows), a bias added to every row, and a rectifier `max (·) 0`; the last layer replaces
  the rectifier by a division of every row by its Euclidean length, the length floored at a small
  positive constant.

  Here are the pieces that are pointwise in the ROW of the array — the products with the weight
  matrices, the bias and rectifier, the bias and normalisation — each as one function of whole arrays,
  index by index.  The aggregation over the edges is kept as the host operations both programs share.
-/
import Idealize.ShloMosaic.PureOps.Ideal
import Idealize.ShloMosaic.Lib.ValueIdx

noncomputable section

namespace Cert.Gcn

open Idealize.ShloMosaic Idealize.ShloMosaic.ValueIdx

/-- Arrays of extended reals over literal shapes: `n` rows of `k` entries, and a vector of `k` entries. -/
abbrev Mat (n k : Nat) : Type := (⟨2, ![n, k]⟩ : Shape).Idx → EReal
abbrev Row (k : Nat) : Type := (⟨1, ![k]⟩ : Shape).Idx → EReal

/-- `x · w + b`: entry `(r, j)` is the sum over `k` of `x (r, k) · w (k, j)`, plus `b j`. -/
def linBias (x : Mat 100000 128) (w : Mat 128 64) (b : Row 64) : Mat 100000 64 := fun i =>
  (∑ k : Fin 128, x (ix2 (i 0) k) * w (ix2 k (i 1))) + b (ix1 (i 1))

/-- `x · w` for a 64 × 64 weight matrix. -/
def lin64 (x : Mat 100000 64) (w : Mat 64 64) : Mat 100000 64 := fun i =>
  ∑ k : Fin 64, x (ix2 (i 0) k) * w (ix2 k (i 1))

/-- `x · w` for a 64 × 32 weight matrix. -/
def lin32 (x : Mat 100000 64) (w : Mat 64 32) : Mat 100000 32 := fun i =>
  ∑ k : Fin 64, x (ix2 (i 0) k) * w (ix2 k (i 1))

/-- `max (a + b) 0`, the bias `b` added to every row. -/
def biasRelu (a : Mat 100000 64) (b : Row 64) : Mat 100000 64 := fun i =>
  max (a i + b (ix1 (i 1))) (Ideal.ofBits .f32 0x00000000#32)

/-- Every row of `a + b` divided by its Euclidean length, the length floored at the constant. -/
def biasNormalize (a : Mat 100000 32) (b : Row 32) : Mat 100000 32 := fun i =>
  Ideal.div (a i + b (ix1 (i 1)))
    (max (Ideal.sqrt (∑ k : Fin 32, (a (ix2 (i 0) k) + b (ix1 k)) * (a (ix2 (i 0) k) + b (ix1 k))))
      (Ideal.ofBits .f32 0x2B8CBCCC#32))

end Cert.Gcn

end
-- ==== Proof.Contract.lean ====
/-
  A block's matrix product at an entry, over the extended reals.

  The kernels multiply a block of 10000 rows by a whole weight matrix into a zero accumulator.  Over
  the extended reals that product, at entry `(p, q)`, is the sum over the positions `k` of the shared
  axis of the products of the left matrix at `(p, k)` and the right at `(k, q)`: the zero accumulator
  adds nothing, and the positions of the shared axis are counted by `k`.  Stated here for the three
  shapes the kernels use (128, 64 and 64 shared positions; 64, 64 and 32 columns).
-/
import proofs.«179656_j15384572854543_1_alg».proof.Proof.Gen.KernelIdeal
import Idealize.ShloMosaic.Lib.ValueIdx
import Idealize.ShloMosaic.PureOps.Ideal.Laws

set_option maxRecDepth 16384

noncomputable section

namespace Cert.KernelIdeal.Hand

open Cert.KernelIdeal Idealize.ShloMosaic Idealize.ShloMosaic.ValueIdx

/-- The origin of a two-axis rectangle. -/
theorem origin2 : (![0, 0] : Fin 2 → Nat) = fun _ => 0 := funext fun a => by fin_cases a <;> rfl

/-! ## Blocks of `10000 × 128` against a `128 × 64` matrix -/

abbrev D128 : DotDims S10000x128 S128x64 S10000x64 := dot_S10000x128_S128x64_S10000x64_1_0_0_1_n_n

/-- Coordinate by coordinate: the left factor keeps the entry's row and takes the shared position as its column; the right
    factor takes the shared position as its row and keeps the entry's column. -/
theorem lhs128_0 (i : (S10000x64).Idx) (s : (D128).contr.Idx) : ((D128).lhsIdx i s 0).val = (i 0).val := by
  unfold DotDims.lhsIdx
  rw [dif_neg (show ¬(0 : Fin (S10000x128).rank) ∈ (D128).lhsBatch by decide), dif_pos (show (0 : Fin (S10000x128).rank) ∈ (D128).lhsNonContracting by decide)]
  rfl
theorem lhs128_1 (i : (S10000x64).Idx) (s : (D128).contr.Idx) : ((D128).lhsIdx i s 1).val = (s ⟨0, by decide⟩).val :=
  (D128).lhsIdx_val_of_single rfl i s
theorem rhs128_0 (i : (S10000x64).Idx) (s : (D128).contr.Idx) : ((D128).rhsIdx i s 0).val = (s ⟨0, by decide⟩).val :=
  (D128).rhsIdx_val_of_single rfl i s
theorem rhs128_1 (i : (S10000x64).Idx) (s : (D128).contr.Idx) : ((D128).rhsIdx i s 1).val = (i 1).val := by
  unfold DotDims.rhsIdx
  rw [dif_neg (show ¬(1 : Fin (S128x64).rank) ∈ (D128).rhsBatch by decide), dif_pos (show (1 : Fin (S128x64).rank) ∈ (D128).rhsNonContracting by decide)]
  rfl

/-- A block's product into a zero accumulator, at entry `(p, q)`: the sum over `k` of `x (p, k) · w (k, q)`. -/
theorem mm128_apply (x : FVec Ideal S10000x128 .bf16) (w : FVec Ideal S128x64 .bf16) (p : Fin 10000) (q : Fin 64) :
    matmul D128 none x w (constant S10000x64 .f32 0x00000000#32) (ix2 p q) = ∑ k : Fin 128, x (ix2 p k) * w (ix2 k q) := by
  show FloatOps.matmul D128 none x w (constant S10000x64 .f32 0x00000000#32) (ix2 p q) = _
  rw [Ideal.matmul_constant_zero_apply, ← Equiv.sum_comp (contrEquiv1 D128 128 rfl rfl).symm]
  refine Finset.sum_congr rfl fun k _ => ?_
  have hk := contrEquiv1_symm_val D128 128 rfl rfl k
  have el : (D128).lhsIdx (ix2 p q) ((contrEquiv1 D128 128 rfl rfl).symm k) = ix2 p k := funext fun a => Fin.ext (by
    match a with
    | ⟨0, _⟩ => exact lhs128_0 _ _
    | ⟨1, _⟩ => exact (lhs128_1 _ _).trans hk)
  have er : (D128).rhsIdx (ix2 p q) ((contrEquiv1 D128 128 rfl rfl).symm k) = ix2 k q := funext fun a => Fin.ext (by
    match a with
    | ⟨0, _⟩ => exact (rhs128_0 _ _).trans hk
    | ⟨1, _⟩ => exact rhs128_1 _ _)
  rw [el, er]

/-! ## Blocks of `10000 × 64` against a `64 × 64` matrix -/

abbrev D64 : DotDims S10000x64 S64x64 S10000x64 := dot_S10000x64_S64x64_S10000x64_1_0_0_1_n_n

/-- Coordinate by coordinate: the left factor keeps the entry's row and takes the shared position as its column; the right
    factor takes the shared position as its row and keeps the entry's column. -/
theorem lhs64_0 (i : (S10000x64).Idx) (s : (D64).contr.Idx) : ((D64).lhsIdx i s 0).val = (i 0).val := by
  unfold DotDims.lhsIdx
  rw [dif_neg (show ¬(0 : Fin (S10000x64).rank) ∈ (D64).lhsBatch by decide), dif_pos (show (0 : Fin (S10000x64).rank) ∈ (D64).lhsNonContracting by decide)]
  rfl
theorem lhs64_1 (i : (S10000x64).Idx) (s : (D64).contr.Idx) : ((D64).lhsIdx i s 1).val = (s ⟨0, by decide⟩).val :=
  (D64).lhsIdx_val_of_single rfl i s
theorem rhs64_0 (i : (S10000x64).Idx) (s : (D64).contr.Idx) : ((D64).rhsIdx i s 0).val = (s ⟨0, by decide⟩).val :=
  (D64).rhsIdx_val_of_single rfl i s
theorem rhs64_1 (i : (S10000x64).Idx) (s : (D64).contr.Idx) : ((D64).rhsIdx i s 1).val = (i 1).val := by
  unfold DotDims.rhsIdx
  rw [dif_neg (show ¬(1 : Fin (S64x64).rank) ∈ (D64).rhsBatch by decide), dif_pos (show (1 : Fin (S64x64).rank) ∈ (D64).rhsNonContracting by decide)]
  rfl

/-- A block's product into a zero accumulator, at entry `(p, q)`: the sum over `k` of `x (p, k) · w (k, q)`. -/
theorem mm64_apply (x : FVec Ideal S10000x64 .bf16) (w : FVec Ideal S64x64 .bf16) (p : Fin 10000) (q : Fin 64) :
    matmul D64 none x w (constant S10000x64 .f32 0x00000000#32) (ix2 p q) = ∑ k : Fin 64, x (ix2 p k) * w (ix2 k q) := by
  show FloatOps.matmul D64 none x w (constant S10000x64 .f32 0x00000000#32) (ix2 p q) = _
  rw [Ideal.matmul_constant_zero_apply, ← Equiv.sum_comp (contrEquiv1 D64 64 rfl rfl).symm]
  refine Finset.sum_congr rfl fun k _ => ?_
  have hk := contrEquiv1_symm_val D64 64 rfl rfl k
  have el : (D64).lhsIdx (ix2 p q) ((contrEquiv1 D64 64 rfl rfl).symm k) = ix2 p k := funext fun a => Fin.ext (by
    match a with
    | ⟨0, _⟩ => exact lhs64_0 _ _
    | ⟨1, _⟩ => exact (lhs64_1 _ _).trans hk)
  have er : (D64).rhsIdx (ix2 p q) ((contrEquiv1 D64 64 rfl rfl).symm k) = ix2 k q := funext fun a => Fin.ext (by
    match a with
    | ⟨0, _⟩ => exact (rhs64_0 _ _).trans hk
    | ⟨1, _⟩ => exact rhs64_1 _ _)
  rw [el, er]

/-! ## Blocks of `10000 × 64` against a `64 × 32` matrix -/

abbrev D32 : DotDims S10000x64 S64x32 S10000x32 := dot_S10000x64_S64x32_S10000x32_1_0_0_1_n_n

/-- Coordinate by coordinate: the left factor keeps the entry's row and takes the shared position as its column; the right
    factor takes the shared position as its row and keeps the entry's column. -/
theorem lhs32_0 (i : (S10000x32).Idx) (s : (D32).contr.Idx) : ((D32).lhsIdx i s 0).val = (i 0).val := by
  unfold DotDims.lhsIdx
  rw [dif_neg (show ¬(0 : Fin (S10000x64).rank) ∈ (D32).lhsBatch by decide), dif_pos (show (0 : Fin (S10000x64).rank) ∈ (D32).lhsNonContracting by decide)]
  rfl
theorem lhs32_1 (i : (S10000x32).Idx) (s : (D32).contr.Idx) : ((D32).lhsIdx i s 1).val = (s ⟨0, by decide⟩).val :=
  (D32).lhsIdx_val_of_single rfl i s
theorem rhs32_0 (i : (S10000x32).Idx) (s : (D32).contr.Idx) : ((D32).rhsIdx i s 0).val = (s ⟨0, by decide⟩).val :=
  (D32).rhsIdx_val_of_single rfl i s
theorem rhs32_1 (i : (S10000x32).Idx) (s : (D32).contr.Idx) : ((D32).rhsIdx i s 1).val = (i 1).val := by
  unfold DotDims.rhsIdx
  rw [dif_neg (show ¬(1 : Fin (S64x32).rank) ∈ (D32).rhsBatch by decide), dif_pos (show (1 : Fin (S64x32).rank) ∈ (D32).rhsNonContracting by decide)]
  rfl

/-- A block's product into a zero accumulator, at entry `(p, q)`: the sum over `k` of `x (p, k) · w (k, q)`. -/
theorem mm32_apply (x : FVec Ideal S10000x64 .bf16) (w : FVec Ideal S64x32 .bf16) (p : Fin 10000) (q : Fin 32) :
    matmul D32 none x w (constant S10000x32 .f32 0x00000000#32) (ix2 p q) = ∑ k : Fin 64, x (ix2 p k) * w (ix2 k q) := by
  show FloatOps.matmul D32 none x w (constant S10000x32 .f32 0x00000000#32) (ix2 p q) = _
  rw [Ideal.matmul_constant_zero_apply, ← Equiv.sum_comp (contrEquiv1 D32 64 rfl rfl).symm]
  refine Finset.sum_congr rfl fun k _ => ?_
  have hk := contrEquiv1_symm_val D32 64 rfl rfl k
  have el : (D32).lhsIdx (ix2 p q) ((contrEquiv1 D32 64 rfl rfl).symm k) = ix2 p k := funext fun a => Fin.ext (by
    match a with
    | ⟨0, _⟩ => exact lhs32_0 _ _
    | ⟨1, _⟩ => exact (lhs32_1 _ _).trans hk)
  have er : (D32).rhsIdx (ix2 p q) ((contrEquiv1 D32 64 rfl rfl).symm k) = ix2 k q := funext fun a => Fin.ext (by
    match a with
    | ⟨0, _⟩ => exact (rhs32_0 _ _).trans hk
    | ⟨1, _⟩ => exact rhs32_1 _ _)
  rw [el, er]

end Cert.KernelIdeal.Hand

end
-- ==== Proof.Region0.lean ====
/-
  The first kernel launch: every block of 10000 rows of its input times the 128 × 64 weight matrix, plus
  the bias on every row.

  The launch's grid has ten points; point `t` stages rows `10000 t … 10000 t + 9999` of the input, the
  whole weight matrix and the whole bias row, and writes back the same rows of the output.  The body's
  one store holds the matrix product of the two loaded blocks into a zero accumulator, which over the
  extended reals is the sum over the shared axis of the products of entries, plus the bias row repeated
  over the rows.  A row of a block's result depends on that row of the input only, so the ten written
  blocks are the ten row ranges of ONE array: the product of the whole input with the weight matrix plus
  the bias, and the ranges cover every row.
-/
import proofs.«179656_j15384572854543_1_alg».proof.Proof.Gen.KernelIdeal.Frame
import proofs.«179656_j15384572854543_1_alg».proof.Proof.Spec
import proofs.«179656_j15384572854543_1_alg».proof.Proof.Contract
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The origin of a two-axis rectangle. -/
theorem origin_r0 : (![0, 0] : Fin 2 → Nat) = fun _ => 0 := funext fun a => by fin_cases a <;> rfl

/-- The bias row broadcast over the rows of a block reads, at entry (p, q), entry (0, q) of the row. -/
theorem bcast_r0 (x2 : Vec Ideal S1x64 .f32) (p : Fin 10000) (q : Fin 64) :
    broadcastTo S10000x64 x2 broadcasts_S1x64_S10000x64 (ix2 p q) = x2 (ix2 0 q) := by
  refine broadcastTo_apply x2 _ (ix2 p q) (ix2 0 q) fun a => ?_
  match a with
  | ⟨0, _⟩ => rfl
  | ⟨1, _⟩ => rfl

/-- The body's stored value at entry (p, q) of the block: the sum over k of x (p, k) · w (k, q), plus the bias of
    column q (the changes of format are the identity over the extended reals). -/
theorem pay0_apply (x0 : Vec Ideal S10000x128 .f32) (x1 : Vec Ideal S128x64 .f32) (x2 : Vec Ideal S1x64 .f32)
    (p : Fin 10000) (q : Fin 64) :
    k0_pay1 (F := Ideal) x0 x1 x2 (ix2 p q) = (∑ k : Fin 128, x0 (ix2 p k) * x1 (ix2 k q)) + x2 (ix2 0 q) := by
  unfold k0_pay1
  rw [addf_apply, shapeCast_self, bcast_r0, mm128_apply]
  rfl

/-- The input array, the weight matrix and the bias row as the launch finds them, as arrays of extended reals. -/
abbrev X0 (c : Dev nD) : S100000x128.Idx → EReal := V c main_arg0
abbrev M0 (c : Dev nD) : S128x64.Idx → EReal := V c main_arg2
abbrev B0 (c : Dev nD) : S1x64.Idx → EReal := V c main_v30

/-- The whole output array: the input times the weight matrix, plus the bias on every row. -/
abbrev G0 (c : Dev nD) : Buf (Elt Ideal) ((c : Thread nD τ).loc main_v31) :=
  Cert.Gcn.linBias (X0 V c) (M0 V c) (fun i => B0 V c (ix2 0 (i 0)))

/-- The index maps, decided over the ten points: the input's row block is the output's, no window moves along
    the columns, the weight matrix and the bias are one block each, and the output's row block at point `t`
    is block `t`. -/
theorem idx_facts0 : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val :=
  (by decide +kernel : ∀ t : Fin grid0.N, _)

/-- What point `t` writes back is block `t` of the whole output array: a row of a block's product depends
    on that row of the input only, and a block holds whole rows. -/
theorem flushed0 (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero origin_r0]
  simp only [View.ld_unit_zero (S := S10000x128) origin_r0, View.ld_unit_zero (S := S128x64) origin_r0,
    View.ld_unit_zero (S := S1x64) origin_r0]
  obtain ⟨e0, e1, e2, e3, e4, e5, e6, e7⟩ := idx_facts0 t
  funext j
  obtain ⟨p, q, rfl⟩ : ∃ (p : Fin 10000) (q : Fin 64), j = ix2 p q := ⟨j 0, j 1, eq_ix2 j⟩
  -- entry (p, q) of the block is entry (r, q) of the array, r = 10000 · (the block's number) + p
  obtain ⟨r, hr, hrv⟩ : ∃ r : Fin 100000, ((cfg0.win 3).blk t).view.emb (ix2 p q) = ix2 r q
      ∧ r.val = win0_3.index t (0 : Fin 2) * 10000 + p.val :=
    ⟨((cfg0.win 3).blk t).view.emb (ix2 p q) 0, by
      funext a; apply Fin.ext
      match a with
      | ⟨0, _⟩ => rfl
      | ⟨1, _⟩ => show win0_3.index t (1 : Fin 2) * 64 + 1 * q.val = q.val; omega,
     by show win0_3.index t (0 : Fin 2) * 10000 + 1 * p.val = _; omega⟩
  have hA : ∀ k : Fin 128, iblk0 V c 0 t (ix2 p k) = X0 V c (ix2 r k) := fun k => by
    show X0 V c (((cfg0.win 0).blk t).view.emb (ix2 p k)) = _
    refine congrArg (X0 V c) (funext fun a => Fin.ext ?_)
    match a with
    | ⟨0, _⟩ => show win0_0.index t (0 : Fin 2) * 10000 + 1 * p.val = r.val; omega
    | ⟨1, _⟩ => show win0_0.index t (1 : Fin 2) * 128 + 1 * k.val = k.val; omega
  have hW : ∀ k : Fin 128, iblk0 V c 1 t (ix2 k q) = M0 V c (ix2 k q) := fun k => by
    show M0 V c (((cfg0.win 1).blk t).view.emb (ix2 k q)) = _
    refine congrArg (M0 V c) (funext fun a => Fin.ext ?_)
    match a with
    | ⟨0, _⟩ => show win0_1.index t (0 : Fin 2) * 128 + 1 * k.val = k.val; omega
    | ⟨1, _⟩ => show win0_1.index t (1 : Fin 2) * 64 + 1 * q.val = q.val; omega
  have hB : iblk0 V c 2 t (ix2 0 q) = B0 V c (ix2 0 q) := by
    show B0 V c (((cfg0.win 2).blk t).view.emb (ix2 0 q)) = _
    refine congrArg (B0 V c) (funext fun a => Fin.ext ?_)
    match a with
    | ⟨0, _⟩ => show win0_2.index t (0 : Fin 2) * 1 + 1 * 0 = 0; omega
    | ⟨1, _⟩ => show win0_2.index t (1 : Fin 2) * 64 + 1 * q.val = q.val; omega
  show k0_pay1 (F := Ideal) (iblk0 V c 0 t) (iblk0 V c 1 t) (iblk0 V c 2 t) (ix2 p q) = G0 V c (((cfg0.win 3).blk t).view.emb (ix2 p q))
  rw [pay0_apply, hr, hB]
  refine congrArg (· + B0 V c (ix2 0 q)) (Finset.sum_congr rfl fun k _ => ?_)
  rw [hA k, hW k]

/-- An index of the array is in point `t`'s block iff each coordinate is in the block's range on its axis. -/
theorem mem_blk0 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v31).slice (win0_3.rect t)).set ↔ _
  rw [View.set_slice_whole, Rect.mem_set_unit]
  exact Iff.rfl

/-- Every entry of the array is in the block of the point whose number is its row divided by 10000. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨e0, e1, e2, e3, e4, e5, e6, e7⟩ := idx_facts0 t
  refine ⟨t, flush0_3 t, ?_⟩
  rw [mem_blk0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- After the launch the output array is the input times the weight matrix plus the bias, entry by entry. -/
theorem final0 (c : Dev nD) : (dat0 V c).arrAt 3 cfg0.N
    = (Cert.Gcn.linBias (V c main_arg0) (V c main_arg2) (fun i => (V c main_v30 : S1x64.Idx → EReal) (ix2 0 (i 0))) : Buf (Elt Ideal) ((c : Thread nD τ).loc main_v31)) :=
  (dat0 V c).arrAt_eq_of_cover 3 (G0 V c) (fun t _ => flushed0 V c t) (cover0)

end Cert.KernelIdeal.Hand

end
-- ==== Proof.Region1.lean ====
/-
  The second kernel launch: every block of 10000 rows of its input times the first layer's 64 × 64 weight matrix.

  The launch's grid has ten points; point `t` stages rows `10000 t … 10000 t + 9999` of the input and the
  whole weight matrix, and writes back the same rows of the output.  The body's one store holds the
  matrix product of the two loaded blocks into a zero accumulator: at an entry, the sum over the shared
  axis of the products of the entries.  A row of a block's product depends on that row of the input
  only, so the ten written blocks are the ten row ranges of ONE array, the product of the whole input
  with the weight matrix; and the ranges cover every row.
-/
import proofs.«179656_j15384572854543_1_alg».proof.Proof.Gen.KernelIdeal.Frame
import proofs.«179656_j15384572854543_1_alg».proof.Proof.Spec
import proofs.«179656_j15384572854543_1_alg».proof.Proof.Contract
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's stored value at entry `(p, q)` of the block: the sum over `k` of `x (p, k) · w (k, q)`
    (the change of float format and the reshape to the same shape are the identity). -/
theorem pay1_apply (x0 : Vec Ideal S10000x64 .f32) (x1 : Vec Ideal S64x64 .f32) (p : Fin 10000) (q : Fin 64) :
    k1_pay1 (F := Ideal) x0 x1 (ix2 p q) = ∑ k : Fin 64, x0 (ix2 p k) * x1 (ix2 k q) := by
  unfold k1_pay1
  refine (mm64_apply _ _ p q).trans ?_
  refine Finset.sum_congr rfl fun k _ => ?_
  rw [truncf_apply, truncf_apply, shapeCast_self]

/-- The input array and the weight matrix as the launch finds them, as arrays of extended reals. -/
abbrev X1 (c : Dev nD) : S100000x64.Idx → EReal := V c main_v31
abbrev M1 (c : Dev nD) : S64x64.Idx → EReal := V c main_arg4

/-- The whole output array: the input times the weight matrix. -/
abbrev G1 (c : Dev nD) : Buf (Elt Ideal) ((c : Thread nD τ).loc main_v32) :=
  Cert.Gcn.lin64 (X1 V c) (M1 V c)

/-- The printed index maps over the ten grid points: the input's and the output's row blocks are block `t` at point `t`;
    no window moves along the columns; the weight matrix is one block. -/
theorem idx_facts1 : ∀ t : Fin cfg1.N, win1_0.index t (0 : Fin 2) = win1_2.index t (0 : Fin 2)
    ∧ win1_0.index t (1 : Fin 2) = 0 ∧ win1_2.index t (1 : Fin 2) = 0
    ∧ win1_1.index t (0 : Fin 2) = 0 ∧ win1_1.index t (1 : Fin 2) = 0
    ∧ win1_2.index t (0 : Fin 2) = t.val :=
  (by decide +kernel : ∀ t : Fin grid1.N, _)

/-- What point `t` writes back is block `t` of the whole output array. -/
theorem flushed1 (c : Dev nD) (t : Fin cfg1.N) :
    (dat1 V c).flushed 2 t = ((cfg1.win 2).blk t).view.read (Elt Ideal) (G1 V c) := by
  show (cfg1.win 2).cut (grid1.coords t) ((dat1 V c).after 2 t) = _
  rw [after1_2]
  unfold out1_2
  rw [View.canon_unit_zero origin2]
  simp only [View.ld_unit_zero (S := S10000x64) origin2, View.ld_unit_zero (S := S64x64) origin2]
  obtain ⟨e0, e1, e2, e3, e4, e5⟩ := idx_facts1 t
  funext j
  obtain ⟨p, q, rfl⟩ : ∃ (p : Fin 10000) (q : Fin 64), j = ix2 p q := ⟨j 0, j 1, eq_ix2 j⟩
  -- entry (p, q) of the block is entry (r, q) of the array, r = 10000 · (the block's number) + p
  obtain ⟨r, hr, hrv⟩ : ∃ r : Fin 100000, ((cfg1.win 2).blk t).view.emb (ix2 p q) = ix2 r q
      ∧ r.val = win1_2.index t (0 : Fin 2) * 10000 + p.val :=
    ⟨((cfg1.win 2).blk t).view.emb (ix2 p q) 0, by
      funext a; apply Fin.ext
      match a with
      | ⟨0, _⟩ => rfl
      | ⟨1, _⟩ => show win1_2.index t (1 : Fin 2) * 64 + 1 * q.val = q.val; omega,
     by show win1_2.index t (0 : Fin 2) * 10000 + 1 * p.val = _; omega⟩
  have hA : ∀ k : Fin 64, iblk1 V c 0 t (ix2 p k) = X1 V c (ix2 r k) := fun k => by
    show X1 V c (((cfg1.win 0).blk t).view.emb (ix2 p k)) = _
    refine congrArg (X1 V c) (funext fun a => Fin.ext ?_)
    match a with
    | ⟨0, _⟩ => show win1_0.index t (0 : Fin 2) * 10000 + 1 * p.val = r.val; omega
    | ⟨1, _⟩ => show win1_0.index t (1 : Fin 2) * 64 + 1 * k.val = k.val; omega
  have hB : ∀ k : Fin 64, iblk1 V c 1 t (ix2 k q) = M1 V c (ix2 k q) := fun k => by
    show M1 V c (((cfg1.win 1).blk t).view.emb (ix2 k q)) = _
    refine congrArg (M1 V c) (funext fun a => Fin.ext ?_)
    match a with
    | ⟨0, _⟩ => show win1_1.index t (0 : Fin 2) * 64 + 1 * k.val = k.val; omega
    | ⟨1, _⟩ => show win1_1.index t (1 : Fin 2) * 64 + 1 * q.val = q.val; omega
  show k1_pay1 (F := Ideal) (iblk1 V c 0 t) (iblk1 V c 1 t) (ix2 p q) = G1 V c (((cfg1.win 2).blk t).view.emb (ix2 p q))
  rw [hr]
  refine (pay1_apply (iblk1 V c 0 t) (iblk1 V c 1 t) p q).trans ?_
  show _ = ∑ k : Fin 64, X1 V c (ix2 r k) * M1 V c (ix2 k q)
  exact Finset.sum_congr rfl fun k _ => by rw [hA k, hB k]

/-- An index of the array is in point `t`'s block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v32).slice (win1_2.rect t)).set ↔ _
  rw [View.set_slice_whole, Rect.mem_set_unit]
  exact Iff.rfl

/-- Every entry of the array is in the block of the point whose number is its row divided by 10000. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨e0, e1, e2, e3, e4, e5⟩ := idx_facts1 t
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the launch the output array is the input array, as the launch finds it, times the weight matrix. -/
theorem final1 (c : Dev nD) : (dat1 V c).arrAt 2 cfg1.N
    = (Cert.Gcn.lin64 (V c main_v31) (V c main_arg4) : Buf (Elt Ideal) ((c : Thread nD τ).loc main_v32)) :=
  (dat1 V c).arrAt_eq_of_cover 2 (G1 V c) (fun t _ => flushed1 V c t) (cover1)

end Cert.KernelIdeal.Hand

end
-- ==== Proof.Region2.lean ====
/-
  The third kernel launch: the bias added to every row of its input, then the rectifier.

  The launch's grid has ten points; point `t` stages rows `10000 t … 10000 t + 9999` of the input and the
  whole bias row, and writes back the same rows of the output.  The body's one store holds, at entry
  `(p, q)` of the block, `max (x (p, q) + b (0, q)) 0`: every operation of the body is entry by entry, and
  the bias row is repeated over the rows.  An entry of a block depends on that entry of the input and on
  the bias of its column only, so the ten written blocks are the ten row ranges of ONE array,
  `max (x + b) 0` over the whole input, and the ranges cover every row.
-/
import proofs.«179656_j15384572854543_1_alg».proof.Proof.Gen.KernelIdeal.Frame
import proofs.«179656_j15384572854543_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The origin of a two-axis rectangle. -/
theorem origin_r2 : (![0, 0] : Fin 2 → Nat) = fun _ => 0 := funext fun a => by fin_cases a <;> rfl

/-- The bias row broadcast over the rows of a block reads, at entry (p, q), entry (0, q) of the row. -/
theorem bcast_r2 (x1 : Vec Ideal S1x64 .f32) (p : Fin 10000) (q : Fin 64) :
    broadcastTo S10000x64 x1 broadcasts_S1x64_S10000x64 (ix2 p q) = x1 (ix2 0 q) := by
  refine broadcastTo_apply x1 _ (ix2 p q) (ix2 0 q) fun a => ?_
  match a with
  | ⟨0, _⟩ => rfl
  | ⟨1, _⟩ => rfl

/-- The body's stored value at entry (p, q) of the block: the rectified sum of the entry and the bias of its column. -/
theorem pay2_apply (x0 : Vec Ideal S10000x64 .f32) (x1 : Vec Ideal S1x64 .f32) (p : Fin 10000) (q : Fin 64) :
    k2_pay1 (F := Ideal) x0 x1 (ix2 p q) = max (x0 (ix2 p q) + x1 (ix2 0 q)) (Ideal.ofBits .f32 0x00000000#32) := by
  unfold k2_pay1
  rw [maximumf_apply, addf_apply, shapeCast_self, shapeCast_self, bcast_r2]
  rfl

/-- The input array and the bias row as the launch finds them, as arrays of extended reals. -/
abbrev X2 (c : Dev nD) : S100000x64.Idx → EReal := V c main_v45
abbrev B2 (c : Dev nD) : S1x64.Idx → EReal := V c main_v46

/-- The whole output array: the rectified sum of every entry of the input and the bias of its column. -/
abbrev G2 (c : Dev nD) : Buf (Elt Ideal) ((c : Thread nD τ).loc main_v47) :=
  Cert.Gcn.biasRelu (X2 V c) (fun i => B2 V c (ix2 0 (i 0)))

/-- The index maps, decided over the ten points: the input's row block is the output's, no window moves along
    the columns, the bias is one block, and the output's row block at point `t` is block `t`. -/
theorem idx_facts2 : ∀ t : Fin cfg2.N, win2_0.index t (0 : Fin 2) = win2_2.index t (0 : Fin 2)
    ∧ win2_0.index t (1 : Fin 2) = 0 ∧ win2_2.index t (1 : Fin 2) = 0
    ∧ win2_1.index t (0 : Fin 2) = 0 ∧ win2_1.index t (1 : Fin 2) = 0
    ∧ win2_2.index t (0 : Fin 2) = t.val :=
  (by decide +kernel : ∀ t : Fin grid2.N, _)

/-- What point `t` writes back is block `t` of the whole output array. -/
theorem flushed2 (c : Dev nD) (t : Fin cfg2.N) :
    (dat2 V c).flushed 2 t = ((cfg2.win 2).blk t).view.read (Elt Ideal) (G2 V c) := by
  show (cfg2.win 2).cut (grid2.coords t) ((dat2 V c).after 2 t) = _
  rw [after2_2]
  unfold out2_2
  rw [View.canon_unit_zero origin_r2]
  simp only [View.ld_unit_zero (S := S10000x64) origin_r2, View.ld_unit_zero (S := S1x64) origin_r2]
  obtain ⟨e0, e1, e2, e3, e4, e5⟩ := idx_facts2 t
  funext j
  obtain ⟨p, q, rfl⟩ : ∃ (p : Fin 10000) (q : Fin 64), j = ix2 p q := ⟨j 0, j 1, eq_ix2 j⟩
  -- entry (p, q) of the block is entry (r, q) of the array, r = 10000 · (the block's number) + p
  obtain ⟨r, hr, hrv⟩ : ∃ r : Fin 100000, ((cfg2.win 2).blk t).view.emb (ix2 p q) = ix2 r q
      ∧ r.val = win2_2.index t (0 : Fin 2) * 10000 + p.val :=
    ⟨((cfg2.win 2).blk t).view.emb (ix2 p q) 0, by
      funext a; apply Fin.ext
      match a with
      | ⟨0, _⟩ => rfl
      | ⟨1, _⟩ => show win2_2.index t (1 : Fin 2) * 64 + 1 * q.val = q.val; omega,
     by show win2_2.index t (0 : Fin 2) * 10000 + 1 * p.val = _; omega⟩
  have hA : iblk2 V c 0 t (ix2 p q) = X2 V c (ix2 r q) := by
    show X2 V c (((cfg2.win 0).blk t).view.emb (ix2 p q)) = _
    refine congrArg (X2 V c) (funext fun a => Fin.ext ?_)
    match a with
    | ⟨0, _⟩ => show win2_0.index t (0 : Fin 2) * 10000 + 1 * p.val = r.val; omega
    | ⟨1, _⟩ => show win2_0.index t (1 : Fin 2) * 64 + 1 * q.val = q.val; omega
  have hB : iblk2 V c 1 t (ix2 0 q) = B2 V c (ix2 0 q) := by
    show B2 V c (((cfg2.win 1).blk t).view.emb (ix2 0 q)) = _
    refine congrArg (B2 V c) (funext fun a => Fin.ext ?_)
    match a with
    | ⟨0, _⟩ => show win2_1.index t (0 : Fin 2) * 1 + 1 * 0 = 0; omega
    | ⟨1, _⟩ => show win2_1.index t (1 : Fin 2) * 64 + 1 * q.val = q.val; omega
  show k2_pay1 (F := Ideal) (iblk2 V c 0 t) (iblk2 V c 1 t) (ix2 p q) = G2 V c (((cfg2.win 2).blk t).view.emb (ix2 p q))
  rw [pay2_apply, hr, hA, hB]
  rfl

/-- An index of the array is in point `t`'s block iff each coordinate is in the block's range on its axis. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v47).slice (win2_2.rect t)).set ↔ _
  rw [View.set_slice_whole, Rect.mem_set_unit]
  exact Iff.rfl

/-- Every entry of the array is in the block of the point whose number is its row divided by 10000. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨e0, e1, e2, e3, e4, e5⟩ := idx_facts2 t
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- After the launch the output array is the rectified sum of the input and the bias, entry by entry. -/
theorem final2 (c : Dev nD) : (dat2 V c).arrAt 2 cfg2.N
    = (Cert.Gcn.biasRelu (V c main_v45) (fun i => (V c main_v46 : S1x64.Idx → EReal) (ix2 0 (i 0))) : Buf (Elt Ideal) ((c : Thread nD τ).loc main_v47)) :=
  (dat2 V c).arrAt_eq_of_cover 2 (G2 V c) (fun t _ => flushed2 V c t) (cover2)

end Cert.KernelIdeal.Hand

end
-- ==== Proof.Region3.lean ====
/-
  The fourth kernel launch: every block of 10000 rows of its input times the second layer's 64 × 64 weight matrix.

  The launch's grid has ten points; point `t` stages rows `10000 t … 10000 t + 9999` of the input and the
  whole weight matrix, and writes back the same rows of the output.  The body's one store holds the
  matrix product of the two loaded blocks into a zero accumulator: at an entry, the sum over the shared
  axis of the products of the entries.  A row of a block's product depends on that row of the input
  only, so the ten written blocks are the ten row ranges of ONE array, the product of the whole input
  with the weight matrix; and the ranges cover every row.
-/
import proofs.«179656_j15384572854543_1_alg».proof.Proof.Gen.KernelIdeal.Frame
import proofs.«179656_j15384572854543_1_alg».proof.Proof.Spec
import proofs.«179656_j15384572854543_1_alg».proof.Proof.Contract
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's stored value at entry `(p, q)` of the block: the sum over `k` of `x (p, k) · w (k, q)`
    (the change of float format and the reshape to the same shape are the identity). -/
theorem pay3_apply (x0 : Vec Ideal S10000x64 .f32) (x1 : Vec Ideal S64x64 .f32) (p : Fin 10000) (q : Fin 64) :
    k3_pay1 (F := Ideal) x0 x1 (ix2 p q) = ∑ k : Fin 64, x0 (ix2 p k) * x1 (ix2 k q) := by
  unfold k3_pay1
  refine (mm64_apply _ _ p q).trans ?_
  refine Finset.sum_congr rfl fun k _ => ?_
  rw [truncf_apply, truncf_apply, shapeCast_self]

/-- The input array and the weight matrix as the launch finds them, as arrays of extended reals. -/
abbrev X3 (c : Dev nD) : S100000x64.Idx → EReal := V c main_v47
abbrev M3 (c : Dev nD) : S64x64.Idx → EReal := V c main_arg6

/-- The whole output array: the input times the weight matrix. -/
abbrev G3 (c : Dev nD) : Buf (Elt Ideal) ((c : Thread nD τ).loc main_v48) :=
  Cert.Gcn.lin64 (X3 V c) (M3 V c)

/-- The printed index maps over the ten grid points: the input's and the output's row blocks are block `t` at point `t`;
    no window moves along the columns; the weight matrix is one block. -/
theorem idx_facts3 : ∀ t : Fin cfg3.N, win3_0.index t (0 : Fin 2) = win3_2.index t (0 : Fin 2)
    ∧ win3_0.index t (1 : Fin 2) = 0 ∧ win3_2.index t (1 : Fin 2) = 0
    ∧ win3_1.index t (0 : Fin 2) = 0 ∧ win3_1.index t (1 : Fin 2) = 0
    ∧ win3_2.index t (0 : Fin 2) = t.val :=
  (by decide +kernel : ∀ t : Fin grid3.N, _)

/-- What point `t` writes back is block `t` of the whole output array. -/
theorem flushed3 (c : Dev nD) (t : Fin cfg3.N) :
    (dat3 V c).flushed 2 t = ((cfg3.win 2).blk t).view.read (Elt Ideal) (G3 V c) := by
  show (cfg3.win 2).cut (grid3.coords t) ((dat3 V c).after 2 t) = _
  rw [after3_2]
  unfold out3_2
  rw [View.canon_unit_zero origin2]
  simp only [View.ld_unit_zero (S := S10000x64) origin2, View.ld_unit_zero (S := S64x64) origin2]
  obtain ⟨e0, e1, e2, e3, e4, e5⟩ := idx_facts3 t
  funext j
  obtain ⟨p, q, rfl⟩ : ∃ (p : Fin 10000) (q : Fin 64), j = ix2 p q := ⟨j 0, j 1, eq_ix2 j⟩
  -- entry (p, q) of the block is entry (r, q) of the array, r = 10000 · (the block's number) + p
  obtain ⟨r, hr, hrv⟩ : ∃ r : Fin 100000, ((cfg3.win 2).blk t).view.emb (ix2 p q) = ix2 r q
      ∧ r.val = win3_2.index t (0 : Fin 2) * 10000 + p.val :=
    ⟨((cfg3.win 2).blk t).view.emb (ix2 p q) 0, by
      funext a; apply Fin.ext
      match a with
      | ⟨0, _⟩ => rfl
      | ⟨1, _⟩ => show win3_2.index t (1 : Fin 2) * 64 + 1 * q.val = q.val; omega,
     by show win3_2.index t (0 : Fin 2) * 10000 + 1 * p.val = _; omega⟩
  have hA : ∀ k : Fin 64, iblk3 V c 0 t (ix2 p k) = X3 V c (ix2 r k) := fun k => by
    show X3 V c (((cfg3.win 0).blk t).view.emb (ix2 p k)) = _
    refine congrArg (X3 V c) (funext fun a => Fin.ext ?_)
    match a with
    | ⟨0, _⟩ => show win3_0.index t (0 : Fin 2) * 10000 + 1 * p.val = r.val; omega
    | ⟨1, _⟩ => show win3_0.index t (1 : Fin 2) * 64 + 1 * k.val = k.val; omega
  have hB : ∀ k : Fin 64, iblk3 V c 1 t (ix2 k q) = M3 V c (ix2 k q) := fun k => by
    show M3 V c (((cfg3.win 1).blk t).view.emb (ix2 k q)) = _
    refine congrArg (M3 V c) (funext fun a => Fin.ext ?_)
    match a with
    | ⟨0, _⟩ => show win3_1.index t (0 : Fin 2) * 64 + 1 * k.val = k.val; omega
    | ⟨1, _⟩ => show win3_1.index t (1 : Fin 2) * 64 + 1 * q.val = q.val; omega
  show k3_pay1 (F := Ideal) (iblk3 V c 0 t) (iblk3 V c 1 t) (ix2 p q) = G3 V c (((cfg3.win 2).blk t).view.emb (ix2 p q))
  rw [hr]
  refine (pay3_apply (iblk3 V c 0 t) (iblk3 V c 1 t) p q).trans ?_
  show _ = ∑ k : Fin 64, X3 V c (ix2 r k) * M3 V c (ix2 k q)
  exact Finset.sum_congr rfl fun k _ => by rw [hA k, hB k]

/-- An index of the array is in point `t`'s block iff each coordinate is in the block's range on its axis. -/
theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v48).slice (win3_2.rect t)).set ↔ _
  rw [View.set_slice_whole, Rect.mem_set_unit]
  exact Iff.rfl

/-- Every entry of the array is in the block of the point whose number is its row divided by 10000. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  obtain ⟨t, ht⟩ : ∃ t : Fin cfg3.N, t.val = (i 0).val / 10000 := ⟨⟨(i 0).val / 10000, by rw [hN]; omega⟩, rfl⟩
  obtain ⟨e0, e1, e2, e3, e4, e5⟩ := idx_facts3 t
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- After the launch the output array is the input array, as the launch finds it, times the weight matrix. -/
theorem final3 (c : Dev nD) : (dat3 V c).arrAt 2 cfg3.N
    = (Cert.Gcn.lin64 (V c main_v47) (V c main_arg6) : Buf (Elt Ideal) ((c : Thread nD τ).loc main_v48)) :=
  (dat3 V c).arrAt_eq_of_cover 2 (G3 V c) (fun t _ => flushed3 V c t) (cover3)

end Cert.KernelIdeal.Hand

end
-- ==== Proof.Region4.lean ====
/-
  The fifth kernel launch: the bias added to every row of its input, then the rectifier (the second
  layer's; the same body as the third launch's, on the second layer's arrays).

  The launch's grid has ten points; point `t` stages rows `10000 t … 10000 t + 9999` of the input and the
  whole bias row, and writes back the same rows of the output.  The body's one store holds, at entry
  `(p, q)` of the block, `max (x (p, q) + b (0, q)) 0`: every operation of the body is entry by entry, and
  the bias row is repeated over the rows.  An entry of a block depends on that entry of the input and on
  the bias of its column only, so the ten written blocks are the ten row ranges of ONE array,
  `max (x + b) 0` over the whole input, and the ranges cover every row.
-/
import proofs.«179656_j15384572854543_1_alg».proof.Proof.Gen.KernelIdeal.Frame
import proofs.«179656_j15384572854543_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The origin of a two-axis rectangle. -/
theorem origin_r4 : (![0, 0] : Fin 2 → Nat) = fun _ => 0 := funext fun a => by fin_cases a <;> rfl

/-- The bias row broadcast over the rows of a block reads, at entry (p, q), entry (0, q) of the row. -/
theorem bcast_r4 (x1 : Vec Ideal S1x64 .f32) (p : Fin 10000) (q : Fin 64) :
    broadcastTo S10000x64 x1 broadcasts_S1x64_S10000x64 (ix2 p q) = x1 (ix2 0 q) := by
  refine broadcastTo_apply x1 _ (ix2 p q) (ix2 0 q) fun a => ?_
  match a with
  | ⟨0, _⟩ => rfl
  | ⟨1, _⟩ => rfl

/-- The body's stored value at entry (p, q) of the block: the rectified sum of the entry and the bias of its column. -/
theorem pay4_apply (x0 : Vec Ideal S10000x64 .f32) (x1 : Vec Ideal S1x64 .f32) (p : Fin 10000) (q : Fin 64) :
    k4_pay1 (F := Ideal) x0 x1 (ix2 p q) = max (x0 (ix2 p q) + x1 (ix2 0 q)) (Ideal.ofBits .f32 0x00000000#32) := by
  unfold k4_pay1
  rw [maximumf_apply, addf_apply, shapeCast_self, shapeCast_self, bcast_r4]
  rfl

/-- The input array and the bias row as the launch finds them, as arrays of extended reals. -/
abbrev X4 (c : Dev nD) : S100000x64.Idx → EReal := V c main_v61
abbrev B4 (c : Dev nD) : S1x64.Idx → EReal := V c main_v62

/-- The whole output array: the rectified sum of every entry of the input and the bias of its column. -/
abbrev G4 (c : Dev nD) : Buf (Elt Ideal) ((c : Thread nD τ).loc main_v63) :=
  Cert.Gcn.biasRelu (X4 V c) (fun i => B4 V c (ix2 0 (i 0)))

/-- The index maps, decided over the ten points: the input's row block is the output's, no window moves along
    the columns, the bias is one block, and the output's row block at point `t` is block `t`. -/
theorem idx_facts4 : ∀ t : Fin cfg4.N, win4_0.index t (0 : Fin 2) = win4_2.index t (0 : Fin 2)
    ∧ win4_0.index t (1 : Fin 2) = 0 ∧ win4_2.index t (1 : Fin 2) = 0
    ∧ win4_1.index t (0 : Fin 2) = 0 ∧ win4_1.index t (1 : Fin 2) = 0
    ∧ win4_2.index t (0 : Fin 2) = t.val :=
  (by decide +kernel : ∀ t : Fin grid4.N, _)

/-- What point `t` writes back is block `t` of the whole output array. -/
theorem flushed4 (c : Dev nD) (t : Fin cfg4.N) :
    (dat4 V c).flushed 2 t = ((cfg4.win 2).blk t).view.read (Elt Ideal) (G4 V c) := by
  show (cfg4.win 2).cut (grid4.coords t) ((dat4 V c).after 2 t) = _
  rw [after4_2]
  unfold out4_2
  rw [View.canon_unit_zero origin_r4]
  simp only [View.ld_unit_zero (S := S10000x64) origin_r4, View.ld_unit_zero (S := S1x64) origin_r4]
  obtain ⟨e0, e1, e2, e3, e4, e5⟩ := idx_facts4 t
  funext j
  obtain ⟨p, q, rfl⟩ : ∃ (p : Fin 10000) (q : Fin 64), j = ix2 p q := ⟨j 0, j 1, eq_ix2 j⟩
  -- entry (p, q) of the block is entry (r, q) of the array, r = 10000 · (the block's number) + p
  obtain ⟨r, hr, hrv⟩ : ∃ r : Fin 100000, ((cfg4.win 2).blk t).view.emb (ix2 p q) = ix2 r q
      ∧ r.val = win4_2.index t (0 : Fin 2) * 10000 + p.val :=
    ⟨((cfg4.win 2).blk t).view.emb (ix2 p q) 0, by
      funext a; apply Fin.ext
      match a with
      | ⟨0, _⟩ => rfl
      | ⟨1, _⟩ => show win4_2.index t (1 : Fin 2) * 64 + 1 * q.val = q.val; omega,
     by show win4_2.index t (0 : Fin 2) * 10000 + 1 * p.val = _; omega⟩
  have hA : iblk4 V c 0 t (ix2 p q) = X4 V c (ix2 r q) := by
    show X4 V c (((cfg4.win 0).blk t).view.emb (ix2 p q)) = _
    refine congrArg (X4 V c) (funext fun a => Fin.ext ?_)
    match a with
    | ⟨0, _⟩ => show win4_0.index t (0 : Fin 2) * 10000 + 1 * p.val = r.val; omega
    | ⟨1, _⟩ => show win4_0.index t (1 : Fin 2) * 64 + 1 * q.val = q.val; omega
  have hB : iblk4 V c 1 t (ix2 0 q) = B4 V c (ix2 0 q) := by
    show B4 V c (((cfg4.win 1).blk t).view.emb (ix2 0 q)) = _
    refine congrArg (B4 V c) (funext fun a => Fin.ext ?_)
    match a with
    | ⟨0, _⟩ => show win4_1.index t (0 : Fin 2) * 1 + 1 * 0 = 0; omega
    | ⟨1, _⟩ => show win4_1.index t (1 : Fin 2) * 64 + 1 * q.val = q.val; omega
  show k4_pay1 (F := Ideal) (iblk4 V c 0 t) (iblk4 V c 1 t) (ix2 p q) = G4 V c (((cfg4.win 2).blk t).view.emb (ix2 p q))
  rw [pay4_apply, hr, hA, hB]
  rfl

/-- An index of the array is in point `t`'s block iff each coordinate is in the block's range on its axis. -/
theorem mem_blk4 (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v63).slice (win4_2.rect t)).set ↔ _
  rw [View.set_slice_whole, Rect.mem_set_unit]
  exact Iff.rfl

/-- Every entry of the array is in the block of the point whose number is its row divided by 10000. -/
theorem cover4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 10 := N_4
  obtain ⟨t, ht⟩ : ∃ t : Fin cfg4.N, t.val = (i 0).val / 10000 := ⟨⟨(i 0).val / 10000, by rw [hN]; omega⟩, rfl⟩
  obtain ⟨e0, e1, e2, e3, e4, e5⟩ := idx_facts4 t
  refine ⟨t, flush4_2 t, ?_⟩
  rw [mem_blk4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- After the launch the output array is the rectified sum of the input and the bias, entry by entry. -/
theorem final4 (c : Dev nD) : (dat4 V c).arrAt 2 cfg4.N
    = (Cert.Gcn.biasRelu (V c main_v61) (fun i => (V c main_v62 : S1x64.Idx → EReal) (ix2 0 (i 0))) : Buf (Elt Ideal) ((c : Thread nD τ).loc main_v63)) :=
  (dat4 V c).arrAt_eq_of_cover 2 (G4 V c) (fun t _ => flushed4 V c t) (cover4)

end Cert.KernelIdeal.Hand

end
-- ==== Proof.Region5.lean ====
/-
  The sixth kernel launch: every block of 10000 rows of its input times the last layer's 64 × 32 weight matrix.

  The launch's grid has ten points; point `t` stages rows `10000 t … 10000 t + 9999` of the input and the
  whole weight matrix, and writes back the same rows of the output.  The body's one store holds the
  matrix product of the two loaded blocks into a zero accumulator: at an entry, the sum over the shared
  axis of the products of the entries.  A row of a block's product depends on that row of the input
  only, so the ten written blocks are the ten row ranges of ONE array, the product of the whole input
  with the weight matrix; and the ranges cover every row.
-/
import proofs.«179656_j15384572854543_1_alg».proof.Proof.Gen.KernelIdeal.Frame
import proofs.«179656_j15384572854543_1_alg».proof.Proof.Spec
import proofs.«179656_j15384572854543_1_alg».proof.Proof.Contract
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's stored value at entry `(p, q)` of the block: the sum over `k` of `x (p, k) · w (k, q)`
    (the change of float format and the reshape to the same shape are the identity). -/
theorem pay5_apply (x0 : Vec Ideal S10000x64 .f32) (x1 : Vec Ideal S64x32 .f32) (p : Fin 10000) (q : Fin 32) :
    k5_pay1 (F := Ideal) x0 x1 (ix2 p q) = ∑ k : Fin 64, x0 (ix2 p k) * x1 (ix2 k q) := by
  unfold k5_pay1
  refine (mm32_apply _ _ p q).trans ?_
  refine Finset.sum_congr rfl fun k _ => ?_
  rw [truncf_apply, truncf_apply, shapeCast_self]

/-- The input array and the weight matrix as the launch finds them, as arrays of extended reals. -/
abbrev X5 (c : Dev nD) : S100000x64.Idx → EReal := V c main_v63
abbrev M5 (c : Dev nD) : S64x32.Idx → EReal := V c main_arg8

/-- The whole output array: the input times the weight matrix. -/
abbrev G5 (c : Dev nD) : Buf (Elt Ideal) ((c : Thread nD τ).loc main_v64) :=
  Cert.Gcn.lin32 (X5 V c) (M5 V c)

/-- The printed index maps over the ten grid points: the input's and the output's row blocks are block `t` at point `t`;
    no window moves along the columns; the weight matrix is one block. -/
theorem idx_facts5 : ∀ t : Fin cfg5.N, win5_0.index t (0 : Fin 2) = win5_2.index t (0 : Fin 2)
    ∧ win5_0.index t (1 : Fin 2) = 0 ∧ win5_2.index t (1 : Fin 2) = 0
    ∧ win5_1.index t (0 : Fin 2) = 0 ∧ win5_1.index t (1 : Fin 2) = 0
    ∧ win5_2.index t (0 : Fin 2) = t.val :=
  (by decide +kernel : ∀ t : Fin grid5.N, _)

/-- What point `t` writes back is block `t` of the whole output array. -/
theorem flushed5 (c : Dev nD) (t : Fin cfg5.N) :
    (dat5 V c).flushed 2 t = ((cfg5.win 2).blk t).view.read (Elt Ideal) (G5 V c) := by
  show (cfg5.win 2).cut (grid5.coords t) ((dat5 V c).after 2 t) = _
  rw [after5_2]
  unfold out5_2
  rw [View.canon_unit_zero origin2]
  simp only [View.ld_unit_zero (S := S10000x64) origin2, View.ld_unit_zero (S := S64x32) origin2]
  obtain ⟨e0, e1, e2, e3, e4, e5⟩ := idx_facts5 t
  funext j
  obtain ⟨p, q, rfl⟩ : ∃ (p : Fin 10000) (q : Fin 32), j = ix2 p q := ⟨j 0, j 1, eq_ix2 j⟩
  -- entry (p, q) of the block is entry (r, q) of the array, r = 10000 · (the block's number) + p
  obtain ⟨r, hr, hrv⟩ : ∃ r : Fin 100000, ((cfg5.win 2).blk t).view.emb (ix2 p q) = ix2 r q
      ∧ r.val = win5_2.index t (0 : Fin 2) * 10000 + p.val :=
    ⟨((cfg5.win 2).blk t).view.emb (ix2 p q) 0, by
      funext a; apply Fin.ext
      match a with
      | ⟨0, _⟩ => rfl
      | ⟨1, _⟩ => show win5_2.index t (1 : Fin 2) * 32 + 1 * q.val = q.val; omega,
     by show win5_2.index t (0 : Fin 2) * 10000 + 1 * p.val = _; omega⟩
  have hA : ∀ k : Fin 64, iblk5 V c 0 t (ix2 p k) = X5 V c (ix2 r k) := fun k => by
    show X5 V c (((cfg5.win 0).blk t).view.emb (ix2 p k)) = _
    refine congrArg (X5 V c) (funext fun a => Fin.ext ?_)
    match a with
    | ⟨0, _⟩ => show win5_0.index t (0 : Fin 2) * 10000 + 1 * p.val = r.val; omega
    | ⟨1, _⟩ => show win5_0.index t (1 : Fin 2) * 64 + 1 * k.val = k.val; omega
  have hB : ∀ k : Fin 64, iblk5 V c 1 t (ix2 k q) = M5 V c (ix2 k q) := fun k => by
    show M5 V c (((cfg5.win 1).blk t).view.emb (ix2 k q)) = _
    refine congrArg (M5 V c) (funext fun a => Fin.ext ?_)
    match a with
    | ⟨0, _⟩ => show win5_1.index t (0 : Fin 2) * 64 + 1 * k.val = k.val; omega
    | ⟨1, _⟩ => show win5_1.index t (1 : Fin 2) * 32 + 1 * q.val = q.val; omega
  show k5_pay1 (F := Ideal) (iblk5 V c 0 t) (iblk5 V c 1 t) (ix2 p q) = G5 V c (((cfg5.win 2).blk t).view.emb (ix2 p q))
  rw [hr]
  refine (pay5_apply (iblk5 V c 0 t) (iblk5 V c 1 t) p q).trans ?_
  show _ = ∑ k : Fin 64, X5 V c (ix2 r k) * M5 V c (ix2 k q)
  exact Finset.sum_congr rfl fun k _ => by rw [hA k, hB k]

/-- An index of the array is in point `t`'s block iff each coordinate is in the block's range on its axis. -/
theorem mem_blk5 (t : Fin cfg5.N) (i : S100000x32.Idx) :
    i ∈ ((cfg5.win 2).blk t).view.set ↔ ∀ a : Fin 2, win5_2.index t a * S10000x32.size a ≤ (i a).val ∧ (i a).val < win5_2.index t a * S10000x32.size a + S10000x32.size a := by
  show i ∈ ((View.whole main_v64).slice (win5_2.rect t)).set ↔ _
  rw [View.set_slice_whole, Rect.mem_set_unit]
  exact Iff.rfl

/-- Every entry of the array is in the block of the point whose number is its row divided by 10000. -/
theorem cover5 (i : S100000x32.Idx) :
    ∃ t : Fin cfg5.N, (cfg5.win 2).flush t = true ∧ i ∈ ((cfg5.win 2).blk t).view.set := by
  have hi0 : (i 0).val < 100000 := (i 0).isLt
  have hi1 : (i 1).val < 32 := (i 1).isLt
  have hN : cfg5.N = 10 := N_5
  obtain ⟨t, ht⟩ : ∃ t : Fin cfg5.N, t.val = (i 0).val / 10000 := ⟨⟨(i 0).val / 10000, by rw [hN]; omega⟩, rfl⟩
  obtain ⟨e0, e1, e2, e3, e4, e5⟩ := idx_facts5 t
  refine ⟨t, flush5_2 t, ?_⟩
  rw [mem_blk5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 32 ≤ (i 1).val ∧ (i 1).val < win5_2.index t (1 : Fin 2) * 32 + 32; omega

/-- After the launch the output array is the input array, as the launch finds it, times the weight matrix. -/
theorem final5 (c : Dev nD) : (dat5 V c).arrAt 2 cfg5.N
    = (Cert.Gcn.lin32 (V c main_v63) (V c main_arg8) : Buf (Elt Ideal) ((c : Thread nD τ).loc main_v64)) :=
  (dat5 V c).arrAt_eq_of_cover 2 (G5 V c) (fun t _ => flushed5 V c t) (cover5)

end Cert.KernelIdeal.Hand

end
-- ==== Proof.Region6.lean ====
/-
  The seventh kernel launch: the bias added to every row of its input, then every row divided by its
  Euclidean length, the length floored at a small positive constant.

  The launch's grid has ten points; point `t` stages rows `10000 t … 10000 t + 9999` of the input and the
  whole bias row, and writes back the same rows of the output.  With `h = x + b` (the bias row repeated
  over the rows), the body's one store holds, at entry `(p, q)` of the block,
  `h (p, q) / max (sqrt (Σ_k h (p, k) · h (p, k))) ε`: the sum runs over the 32 lanes of row `p`, is
  viewed as a column, and the floored root is repeated over the lanes.  A block holds whole rows, so the
  sum over a block's row is the sum over the array's row, and an entry of a block depends on its own row
  of the input and on the bias only.  So the ten written blocks are the ten row ranges of ONE array, the
  normalised `x + b` over the whole input, and the ranges cover every row.
-/
import proofs.«179656_j15384572854543_1_alg».proof.Proof.Gen.KernelIdeal.Frame
import proofs.«179656_j15384572854543_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The origin of a two-axis rectangle. -/
theorem origin_r6 : (![0, 0] : Fin 2 → Nat) = fun _ => 0 := funext fun a => by fin_cases a <;> rfl

/-- The bias row broadcast over the rows of a block reads, at entry (p, q), entry (0, q) of the row. -/
theorem bcast_r6 (x1 : Vec Ideal S1x32 .f32) (p : Fin 10000) (q : Fin 32) :
    broadcastTo S10000x32 x1 broadcasts_S1x32_S10000x32 (ix2 p q) = x1 (ix2 0 q) := by
  refine broadcastTo_apply x1 _ (ix2 p q) (ix2 0 q) fun a => ?_
  match a with
  | ⟨0, _⟩ => rfl
  | ⟨1, _⟩ => rfl

/-- A column broadcast over the lanes reads, at entry (p, q), entry (p, 0) of the column. -/
theorem bcol_r6 (v : FVec Ideal S10000x1 .f32) (p : Fin 10000) (q : Fin 32) :
    broadcastTo S10000x32 v broadcasts_S10000x1_S10000x32 (ix2 p q) = v (ix2 p 0) := by
  refine broadcastTo_apply v _ (ix2 p q) (ix2 p 0) fun a => ?_
  match a with
  | ⟨0, _⟩ => rfl
  | ⟨1, _⟩ => rfl

/-- A vector of one value per row viewed as a column reads, at entry (p, 0), the value of row p. -/
theorem column_r6 (v : FVec Ideal S10000 .f32) (p : Fin 10000) :
    shapeCast S10000x1 v shapeCasts_S10000_S10000x1 (ix2 p (0 : Fin 1)) = v (ix1 p) := by
  refine shapeCast_apply v _ (ix2 p 0) (ix1 p) ?_
  rw [Shape.rowMajor_val_one, Shape.rowMajor_val_two]
  show p.val = p.val * 1 + 0
  omega

/-- The row index p with the lane k put back is (p, k). -/
theorem lift_r6 (p : Fin 10000) (k : Fin 32) :
    reduces_S10000x32_S10000.lift (ix1 p) k = ix2 p k := by
  funext c; apply Fin.ext
  fin_cases c <;> rfl

/-- The sum over the lanes of a block, at row p, is the sum over k of its entries (p, k). -/
theorem rowsum_r6 (v : FVec Ideal S10000x32 .f32) (hacc : (0x00000000#32 : BitVec 32) = 0x00000000#32) (p : Fin 10000) :
    multiReduction .add [1] S10000 v 0x00000000#32 reduces_S10000x32_S10000 (.inl rfl) hacc (ix1 p) = ∑ k : Fin 32, v (ix2 p k) := by
  refine (Ideal.multiReduction_add_single v 0x00000000#32 reduces_S10000x32_S10000 (.inl rfl) hacc (ix1 p)).trans ?_
  exact Finset.sum_congr rfl fun k _ => congrArg v (lift_r6 p k)

/-- The input plus the bias, at entry (p, k) of the block. -/
theorem sum6_apply (x0 : Vec Ideal S10000x32 .f32) (x1 : Vec Ideal S1x32 .f32) (p : Fin 10000) (k : Fin 32) :
    addf (F := Ideal) (φ := .f32) (shapeCast S10000x32 x0 shapeCasts_S10000x32_S10000x32)
        (broadcastTo S10000x32 (shapeCast S1x32 x1 shapeCasts_S1x32_S1x32) broadcasts_S1x32_S10000x32) (ix2 p k)
      = x0 (ix2 p k) + x1 (ix2 0 k) := by
  rw [addf_apply, shapeCast_self, shapeCast_self, bcast_r6]

/-- The body's stored value at entry (p, q) of the block: with h = x + b, entry (p, q) of h divided by the
    length of row p of h, the length floored at the constant. -/
theorem pay6_apply (x0 : Vec Ideal S10000x32 .f32) (x1 : Vec Ideal S1x32 .f32) (p : Fin 10000) (q : Fin 32) :
    k6_pay1 (F := Ideal) x0 x1 (ix2 p q)
      = Ideal.div (x0 (ix2 p q) + x1 (ix2 0 q))
          (max (Ideal.sqrt (∑ k : Fin 32, (x0 (ix2 p k) + x1 (ix2 0 k)) * (x0 (ix2 p k) + x1 (ix2 0 k))))
            (Ideal.ofBits .f32 0x2B8CBCCC#32)) := by
  unfold k6_pay1
  rw [divf_apply, bcol_r6, maximumf_apply, broadcast_apply]
  show Ideal.div _ (max (Ideal.sqrt (shapeCast S10000x1 _ _ (ix2 p 0))) _) = _
  rw [column_r6, rowsum_r6, sum6_apply]
  refine congrArg (Ideal.div _) (congrArg (fun s => max (Ideal.sqrt s) _) (Finset.sum_congr rfl fun k _ => ?_))
  rw [mulf_apply, sum6_apply]

/-- The input array and the bias row as the launch finds them, as arrays of extended reals. -/
abbrev X6 (c : Dev nD) : S100000x32.Idx → EReal := V c main_v77
abbrev B6 (c : Dev nD) : S1x32.Idx → EReal := V c main_v78

/-- The whole output array: every row of the input plus the bias, divided by its floored length. -/
abbrev G6 (c : Dev nD) : Buf (Elt Ideal) ((c : Thread nD τ).loc main_v79) :=
  Cert.Gcn.biasNormalize (X6 V c) (fun i => B6 V c (ix2 0 (i 0)))

/-- The index maps, decided over the ten points: the input's row block is the output's, no window moves along
    the lanes, the bias is one block, and the output's row block at point `t` is block `t`. -/
theorem idx_facts6 : ∀ t : Fin cfg6.N, win6_0.index t (0 : Fin 2) = win6_2.index t (0 : Fin 2)
    ∧ win6_0.index t (1 : Fin 2) = 0 ∧ win6_2.index t (1 : Fin 2) = 0
    ∧ win6_1.index t (0 : Fin 2) = 0 ∧ win6_1.index t (1 : Fin 2) = 0
    ∧ win6_2.index t (0 : Fin 2) = t.val :=
  (by decide +kernel : ∀ t : Fin grid6.N, _)

/-- What point `t` writes back is block `t` of the whole output array: a row of a block is a row of the
    array, whole, so its length is the array row's. -/
theorem flushed6 (c : Dev nD) (t : Fin cfg6.N) :
    (dat6 V c).flushed 2 t = ((cfg6.win 2).blk t).view.read (Elt Ideal) (G6 V c) := by
  show (cfg6.win 2).cut (grid6.coords t) ((dat6 V c).after 2 t) = _
  rw [after6_2]
  unfold out6_2
  rw [View.canon_unit_zero origin_r6]
  simp only [View.ld_unit_zero (S := S10000x32) origin_r6, View.ld_unit_zero (S := S1x32) origin_r6]
  obtain ⟨e0, e1, e2, e3, e4, e5⟩ := idx_facts6 t
  funext j
  obtain ⟨p, q, rfl⟩ : ∃ (p : Fin 10000) (q : Fin 32), j = ix2 p q := ⟨j 0, j 1, eq_ix2 j⟩
  -- entry (p, q) of the block is entry (r, q) of the array, r = 10000 · (the block's number) + p
  obtain ⟨r, hr, hrv⟩ : ∃ r : Fin 100000, ((cfg6.win 2).blk t).view.emb (ix2 p q) = ix2 r q
      ∧ r.val = win6_2.index t (0 : Fin 2) * 10000 + p.val :=
    ⟨((cfg6.win 2).blk t).view.emb (ix2 p q) 0, by
      funext a; apply Fin.ext
      match a with
      | ⟨0, _⟩ => rfl
      | ⟨1, _⟩ => show win6_2.index t (1 : Fin 2) * 32 + 1 * q.val = q.val; omega,
     by show win6_2.index t (0 : Fin 2) * 10000 + 1 * p.val = _; omega⟩
  have hA : ∀ k : Fin 32, iblk6 V c 0 t (ix2 p k) = X6 V c (ix2 r k) := fun k => by
    show X6 V c (((cfg6.win 0).blk t).view.emb (ix2 p k)) = _
    refine congrArg (X6 V c) (funext fun a => Fin.ext ?_)
    match a with
    | ⟨0, _⟩ => show win6_0.index t (0 : Fin 2) * 10000 + 1 * p.val = r.val; omega
    | ⟨1, _⟩ => show win6_0.index t (1 : Fin 2) * 32 + 1 * k.val = k.val; omega
  have hB : ∀ k : Fin 32, iblk6 V c 1 t (ix2 0 k) = B6 V c (ix2 0 k) := fun k => by
    show B6 V c (((cfg6.win 1).blk t).view.emb (ix2 0 k)) = _
    refine congrArg (B6 V c) (funext fun a => Fin.ext ?_)
    match a with
    | ⟨0, _⟩ => show win6_1.index t (0 : Fin 2) * 1 + 1 * 0 = 0; omega
    | ⟨1, _⟩ => show win6_1.index t (1 : Fin 2) * 32 + 1 * k.val = k.val; omega
  show k6_pay1 (F := Ideal) (iblk6 V c 0 t) (iblk6 V c 1 t) (ix2 p q) = G6 V c (((cfg6.win 2).blk t).view.emb (ix2 p q))
  rw [pay6_apply, hr, hA q, hB q]
  refine congrArg (Ideal.div _) (congrArg (fun s => max (Ideal.sqrt s) _) (Finset.sum_congr rfl fun k _ => ?_))
  rw [hA k, hB k]

/-- An index of the array is in point `t`'s block iff each coordinate is in the block's range on its axis. -/
theorem mem_blk6 (t : Fin cfg6.N) (i : S100000x32.Idx) :
    i ∈ ((cfg6.win 2).blk t).view.set ↔ ∀ a : Fin 2, win6_2.index t a * S10000x32.size a ≤ (i a).val ∧ (i a).val < win6_2.index t a * S10000x32.size a + S10000x32.size a := by
  show i ∈ ((View.whole main_v79).slice (win6_2.rect t)).set ↔ _
  rw [View.set_slice_whole, Rect.mem_set_unit]
  exact Iff.rfl

/-- Every entry of the array is in the block of the point whose number is its row divided by 10000. -/
theorem cover6 (i : S100000x32.Idx) :
    ∃ t : Fin cfg6.N, (cfg6.win 2).flush t = true ∧ i ∈ ((cfg6.win 2).blk t).view.set := by
  have hi0 : (i 0).val < 100000 := (i 0).isLt
  have hi1 : (i 1).val < 32 := (i 1).isLt
  have hN : cfg6.N = 10 := N_6
  obtain ⟨t, ht⟩ : ∃ t : Fin cfg6.N, t.val = (i 0).val / 10000 := ⟨⟨(i 0).val / 10000, by rw [hN]; omega⟩, rfl⟩
  obtain ⟨e0, e1, e2, e3, e4, e5⟩ := idx_facts6 t
  refine ⟨t, flush6_2 t, ?_⟩
  rw [mem_blk6]
  intro a
  match a with
  | ⟨0, _⟩ => show win6_2.index t (0 : Fin 2) * 10000 ≤ (i 0).val ∧ (i 0).val < win6_2.index t (0 : Fin 2) * 10000 + 10000; omega
  | ⟨1, _⟩ => show win6_2.index t (1 : Fin 2) * 32 ≤ (i 1).val ∧ (i 1).val < win6_2.index t (1 : Fin 2) * 32 + 32; omega

/-- After the launch the output array is every row of the input plus the bias, divided by its floored length. -/
theorem final6 (c : Dev nD) : (dat6 V c).arrAt 2 cfg6.N
    = (Cert.Gcn.biasNormalize (V c main_v77) (fun i => (V c main_v78 : S1x32.Idx → EReal) (ix2 0 (i 0))) : Buf (Elt Ideal) ((c : Thread nD τ).loc main_v79)) :=
  (dat6 V c).arrAt_eq_of_cover 2 (G6 V c) (fun t _ => flushed6 V c t) (cover6)

end Cert.KernelIdeal.Hand

end
-- ==== Proof.KernelValue.lean ====
/-
  The idealized kernel's result as a function of its arguments.

  Following the run's fold of buffer contents from the launch memory: the first launch leaves
  `x · W_pre + b_pre`; each layer then multiplies by its weight matrix (a launch), aggregates over the
  edges (host operations, on the concatenated edge indices and the per-edge normalisation computed once
  from the edge index array), and adds its bias and rectifies (a launch) — the last layer adds its bias
  and divides every row by its length instead.  Each launch's output array is the specification's
  function of the launch's input arrays as the launch finds them; each of those is, by the previous
  step, the specification's function of the arguments.
-/
import proofs.«179656_j15384572854543_1_alg».proof.Proof.Fold
import proofs.«179656_j15384572854543_1_alg».proof.Proof.Stretch
import proofs.«179656_j15384572854543_1_alg».proof.Proof.Region0
import proofs.«179656_j15384572854543_1_alg».proof.Proof.Region1
import proofs.«179656_j15384572854543_1_alg».proof.Proof.Region2
import proofs.«179656_j15384572854543_1_alg».proof.Proof.Region3
import proofs.«179656_j15384572854543_1_alg».proof.Proof.Region4
import proofs.«179656_j15384572854543_1_alg».proof.Proof.Region5
import proofs.«179656_j15384572854543_1_alg».proof.Proof.Region6

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

open Cert.Gcn

variable (m : (ℓ : Loc nD τ sig) → Buf (Elt Ideal) ℓ) (ρ : Dev nD → PrngReg) (c : Dev nD)

/-! ## The arrays along the way, as functions of the arguments -/

/-- The concatenated source and destination indices and the per-edge normalisation, from the edge index array. -/
abbrev srcIdx := Cert.ReferenceIdeal.ReadP.val_main_v10 (F := Ideal) (m ((c : Thread nD τ).loc main_arg1))
abbrev dstIdx := Cert.ReferenceIdeal.ReadP.val_main_v11 (F := Ideal) (m ((c : Thread nD τ).loc main_arg1))
abbrev edgeNorm := Cert.ReferenceIdeal.ReadP.val_main_v34 (F := Ideal) (m ((c : Thread nD τ).loc main_arg1))

/-- `x · W_pre + b_pre`. -/
abbrev pre : Mat 100000 64 := linBias (m ((c : Thread nD τ).loc main_arg0)) (m ((c : Thread nD τ).loc main_arg2)) (m ((c : Thread nD τ).loc main_arg3))
/-- The first layer: product, aggregation, bias and rectifier. -/
abbrev lin1 : Mat 100000 64 := lin64 (pre m c) (m ((c : Thread nD τ).loc main_arg4))
abbrev agg1 : Mat 100000 64 := agg64 (lin1 m c) (srcIdx m c) (dstIdx m c) (edgeNorm m c)
abbrev act1 : Mat 100000 64 := biasRelu (agg1 m c) (m ((c : Thread nD τ).loc main_arg5))
/-- The second layer. -/
abbrev lin2 : Mat 100000 64 := lin64 (act1 m c) (m ((c : Thread nD τ).loc main_arg6))
abbrev agg2 : Mat 100000 64 := agg64 (lin2 m c) (srcIdx m c) (dstIdx m c) (edgeNorm m c)
abbrev act2 : Mat 100000 64 := biasRelu (agg2 m c) (m ((c : Thread nD τ).loc main_arg7))
/-- The last layer: product, aggregation, bias and normalisation of every row. -/
abbrev lin3 : Mat 100000 32 := lin32 (act2 m c) (m ((c : Thread nD τ).loc main_arg8))
abbrev agg3 : Mat 100000 32 := agg32 (lin3 m c) (srcIdx m c) (dstIdx m c) (edgeNorm m c)
abbrev result : Mat 100000 32 := biasNormalize (agg3 m c) (m ((c : Thread nD τ).loc main_arg9))

/-! ## The fold, boundary by boundary -/

theorem at4 : W4 m ρ c (Proc.devRef .tc main_v31) = (pre m c : Buf (Elt Ideal) ((c : Thread nD τ).loc main_v31)) := by
  refine (W4_arr m ρ c 3).trans ?_
  refine (final0 (V3 m ρ) c).trans ?_
  have h0 : V3 m ρ c main_arg0 = m ((c : Thread nD τ).loc main_arg0) := keep_arg0_0_3 m ρ c
  have h2 : V3 m ρ c main_arg2 = m ((c : Thread nD τ).loc main_arg2) := keep_arg2_0_3 m ρ c
  rw [h0, h2]
  exact congrArg _ (bias0_at3 m ρ c)

theorem at5 : W5 m ρ c (Proc.devRef .tc main_v32) = (lin1 m c : Buf (Elt Ideal) ((c : Thread nD τ).loc main_v32)) := by
  refine (W5_arr m ρ c 2).trans ?_
  refine (final1 (V4 m ρ) c).trans ?_
  have hx : V4 m ρ c main_v31 = _ := at4 m ρ c
  have hw : V4 m ρ c main_arg4 = m ((c : Thread nD τ).loc main_arg4) := keep_arg4_0_4 m ρ c
  rw [hx, hw]

theorem at6 : W6 m ρ c (Proc.devRef .tc main_v45) = (agg1 m c : Buf (Elt Ideal) ((c : Thread nD τ).loc main_v45)) := by
  refine (agg_at6 m ρ c).trans ?_
  rw [at5 m ρ c, keep_v5_3_5 m ρ c, keep_v6_3_5 m ρ c, keep_v29_3_5 m ρ c, src_at3 m ρ c, dst_at3 m ρ c, norm_at3 m ρ c]

theorem at7 : W7 m ρ c (Proc.devRef .tc main_v47) = (act1 m c : Buf (Elt Ideal) ((c : Thread nD τ).loc main_v47)) := by
  refine (W7_arr m ρ c 2).trans ?_
  refine (final2 (V6 m ρ) c).trans ?_
  have hx : V6 m ρ c main_v45 = _ := at6 m ρ c
  rw [hx]
  exact congrArg _ (bias2_at6 m ρ c)

theorem at8 : W8 m ρ c (Proc.devRef .tc main_v48) = (lin2 m c : Buf (Elt Ideal) ((c : Thread nD τ).loc main_v48)) := by
  refine (W8_arr m ρ c 2).trans ?_
  refine (final3 (V7 m ρ) c).trans ?_
  have hx : V7 m ρ c main_v47 = _ := at7 m ρ c
  have hw : V7 m ρ c main_arg6 = m ((c : Thread nD τ).loc main_arg6) := keep_arg6_0_7 m ρ c
  rw [hx, hw]

theorem at9 : W9 m ρ c (Proc.devRef .tc main_v61) = (agg2 m c : Buf (Elt Ideal) ((c : Thread nD τ).loc main_v61)) := by
  refine (agg_at9 m ρ c).trans ?_
  rw [at8 m ρ c, keep_v5_3_8 m ρ c, keep_v6_3_8 m ρ c, keep_v29_3_8 m ρ c, src_at3 m ρ c, dst_at3 m ρ c, norm_at3 m ρ c]

theorem at10 : W10 m ρ c (Proc.devRef .tc main_v63) = (act2 m c : Buf (Elt Ideal) ((c : Thread nD τ).loc main_v63)) := by
  refine (W10_arr m ρ c 2).trans ?_
  refine (final4 (V9 m ρ) c).trans ?_
  have hx : V9 m ρ c main_v61 = _ := at9 m ρ c
  rw [hx]
  exact congrArg _ (bias4_at9 m ρ c)

theorem at11 : W11 m ρ c (Proc.devRef .tc main_v64) = (lin3 m c : Buf (Elt Ideal) ((c : Thread nD τ).loc main_v64)) := by
  refine (W11_arr m ρ c 2).trans ?_
  refine (final5 (V10 m ρ) c).trans ?_
  have hx : V10 m ρ c main_v63 = _ := at10 m ρ c
  have hw : V10 m ρ c main_arg8 = m ((c : Thread nD τ).loc main_arg8) := keep_arg8_0_10 m ρ c
  rw [hx, hw]

theorem at12 : W12 m ρ c (Proc.devRef .tc main_v77) = (agg3 m c : Buf (Elt Ideal) ((c : Thread nD τ).loc main_v77)) := by
  refine (agg_at12 m ρ c).trans ?_
  rw [at11 m ρ c, keep_v5_3_11 m ρ c, keep_v6_3_11 m ρ c, keep_v29_3_11 m ρ c, src_at3 m ρ c, dst_at3 m ρ c, norm_at3 m ρ c]

/-- The result array at the return is the specification's function of the arguments. -/
theorem at13 : W13 m ρ c (Proc.devRef .tc main_v79) = (result m c : Buf (Elt Ideal) ((c : Thread nD τ).loc main_v79)) := by
  refine (W13_arr m ρ c 2).trans ?_
  refine (final6 (V12 m ρ) c).trans ?_
  have hx : V12 m ρ c main_v77 = _ := at12 m ρ c
  rw [hx]
  exact congrArg _ (bias6_at12 m ρ c)

end Cert.KernelIdeal.Hand

end
-- ==== Proof.RefResult.lean ====
/-
  The reference's result, named.

  The reference program's run ends with its result array at the composition of its host operations
  applied to the argument arrays.  That composed term, written out as one tree, is the last of the
  stages that read the program one operation at a time (each stage a function of the arguments, built
  from the earlier stages): unfolding the stages gives the tree back.
-/
import proofs.«179656_j15384572854543_1_alg».proof.Proof.RefRun
import proofs.«179656_j15384572854543_1_alg».proof.Proof.RefRead

noncomputable section

namespace Cert.ReferenceIdeal.Hand

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-- The run's composed term for the result is the last stage, at the argument arrays. -/
theorem result_eq (m : (ℓ : Loc nD τ sig) → Buf (Elt F) ℓ) (c : Dev nD) :
    Cert.ReferenceIdeal.ValueP.res_main_v146 m c = val_main_v146 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.ReferenceIdeal.ValueP.res_main_v146; rfl

end Cert.ReferenceIdeal.Hand

end
-- ==== Proof.RefValue.lean ====
/-
  The reference program, stage by stage, as the shared whole-array functions.

  Every host operation of the reference that is pointwise in the row of its array is read at one index:
  a product with a weight matrix is the sum over the shared axis of the products of entries, a bias is
  a vector broadcast along the rows and added entry by entry, the rectifier is the maximum with a
  broadcast zero, and the last stage divides every entry by the floored square root of the sum of the
  squares of its row.  Each such stage equals the matching function of the shared mathematics applied
  to the stage before it.

  The aggregation over the edges (a gather of source rows, a product with the edge's normalisation, a
  sum into the destination rows) is not opened: it is named as one function of the array it aggregates
  and of the edge list, and the three aggregations of the reference are shown to be that function of
  the three products.  The second and third aggregation rebuild the index arrays and the normalisation
  from the edge list by the same operations as the first, so they are the same arrays.
-/
import proofs.«179656_j15384572854543_1_alg».proof.Proof.RefRead
import proofs.«179656_j15384572854543_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.Hand

open Cert.ReferenceIdeal Cert.ReferenceIdeal.Gen Cert.ReferenceIdeal.ReadP
open Idealize.ShloMosaic Idealize.ShloMosaic.TcCoe Idealize.SL.Sem Idealize.ShloMosaic.StableHlo Idealize.ShloMosaic.ValueIdx

variable (x0 : (⟨S100000x128, .f32⟩ : BufTy).Contents (Elt Ideal)) (x1 : (⟨S2x1600000, .i32⟩ : BufTy).Contents (Elt Ideal))
  (x2 : (⟨S128x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))
  (x8 : (⟨S64x32, .f32⟩ : BufTy).Contents (Elt Ideal)) (x9 : (⟨S32, .f32⟩ : BufTy).Contents (Elt Ideal))

/-! ### The first two products -/

/-- The left factor of entry `(r, j)` of the first product at position `k` is entry `(r, k)`. -/
theorem lidx4 (r : Fin 100000) (j : Fin 64) (k : Fin 128) : lidx_main_v4 (ix2 r j) k = ix2 r k :=
  funext fun a => Fin.ext (by match a with | ⟨0, _⟩ => rfl | ⟨1, _⟩ => rfl)

/-- The right factor of entry `(r, j)` of the first product at position `k` is entry `(k, j)`. -/
theorem ridx4 (r : Fin 100000) (j : Fin 64) (k : Fin 128) : ridx_main_v4 (ix2 r j) k = ix2 k j :=
  funext fun a => Fin.ext (by match a with | ⟨0, _⟩ => rfl | ⟨1, _⟩ => rfl)

/-- The first bias, broadcast along the rows, is read at the column of the entry. -/
theorem bidx6 (r : Fin 100000) (j : Fin 64) : idx_main_v5 (idx_main_v6 (ix2 r j)) = ix1 j :=
  funext fun a => Fin.ext (by match a with | ⟨0, _⟩ => rfl)

/-- The left factor of entry `(r, j)` of the second product at position `k` is entry `(r, k)`. -/
theorem lidx8 (r : Fin 100000) (j : Fin 64) (k : Fin 64) : lidx_main_v8 (ix2 r j) k = ix2 r k :=
  funext fun a => Fin.ext (by match a with | ⟨0, _⟩ => rfl | ⟨1, _⟩ => rfl)

/-- The right factor of entry `(r, j)` of the second product at position `k` is entry `(k, j)`. -/
theorem ridx8 (r : Fin 100000) (j : Fin 64) (k : Fin 64) : ridx_main_v8 (ix2 r j) k = ix2 k j :=
  funext fun a => Fin.ext (by match a with | ⟨0, _⟩ => rfl | ⟨1, _⟩ => rfl)

/-- The first stage: the node features times the first weight matrix, plus the first bias. -/
theorem ref_v7 : val_main_v7 (F := Ideal) x0 x2 x3 = Cert.Gcn.linBias x0 x2 x3 := by
  funext i
  obtain ⟨r, j, rfl⟩ : ∃ (r : Fin 100000) (j : Fin 64), i = ix2 r j := ⟨i 0, i 1, eq_ix2 i⟩
  rw [val_main_v7_apply, val_main_v4_apply, val_main_v6_apply, val_main_v5_apply]
  simp only [lidx4, ridx4, bidx6, Ideal.addf_def]
  rfl

/-- The second stage: the first stage times the second weight matrix. -/
theorem ref_v8 : val_main_v8 (F := Ideal) x0 x2 x3 x4 = Cert.Gcn.lin64 (val_main_v7 (F := Ideal) x0 x2 x3) x4 := by
  funext i
  obtain ⟨r, j, rfl⟩ : ∃ (r : Fin 100000) (j : Fin 64), i = ix2 r j := ⟨i 0, i 1, eq_ix2 i⟩
  rw [val_main_v8_apply]
  simp only [lidx8, ridx8]
  rfl

/-! ### The aggregation over the edges, 64 entries to the row -/

/-- The aggregation of a 64-wide array `hl` over the edge list `ei`: the rows of `hl` gathered at the
    edges' sources, each scaled by its edge's normalisation, summed into the edges' destinations.  The
    index arrays and the normalisation are the reference's own stages, functions of the edge list. -/
def edgeAgg64 (hl : (⟨S100000x64, .f32⟩ : BufTy).Contents (Elt Ideal)) (ei : (⟨S2x1600000, .i32⟩ : BufTy).Contents (Elt Ideal)) :
    (⟨S100000x64, .f32⟩ : BufTy).Contents (Elt Ideal) :=
  Host.scatterAdd (F := Ideal) (φ := .f32) scatter_S100000x64_S1700000x1_S1700000x64_1_0_0_1 (val_main_v45 (F := Ideal))
    (val_main_v46 (F := Ideal) ei)
    (mulf (F := Ideal) (φ := .f32)
      (Host.gather gather_S100000x64_S1700000x1_S1700000x64_1_0_n_n_0_1_164 hl (val_main_v40 (F := Ideal) ei))
      (val_main_v43 (F := Ideal) ei))

/-- The first aggregation is the aggregation of the second stage. -/
theorem ref_v47 : val_main_v47 (F := Ideal) x0 x1 x2 x3 x4 = edgeAgg64 (val_main_v8 (F := Ideal) x0 x2 x3 x4) x1 := by
  unfold val_main_v47 val_main_v44 val_main_v41 edgeAgg64
  rfl

/-! ### The first bias and rectifier, the third product -/

/-- The second bias, broadcast along the rows, is read at the column of the entry. -/
theorem bidx49 (r : Fin 100000) (j : Fin 64) : idx_main_v48 (idx_main_v49 (ix2 r j)) = ix1 j :=
  funext fun a => Fin.ext (by match a with | ⟨0, _⟩ => rfl)

/-- The third stage: the first aggregation plus the second bias, rectified. -/
theorem ref_v51 : val_main_v51 (F := Ideal) x0 x1 x2 x3 x4 x5
    = Cert.Gcn.biasRelu (val_main_v47 (F := Ideal) x0 x1 x2 x3 x4) x5 := by
  funext i
  obtain ⟨r, j, rfl⟩ : ∃ (r : Fin 100000) (j : Fin 64), i = ix2 r j := ⟨i 0, i 1, eq_ix2 i⟩
  rw [val_main_v51_apply, val_main_v50_apply, val_main_v49_apply, val_main_v48_apply, val_main_call1_v0_apply,
    val_main_call1_cst_apply]
  simp only [bidx49, Ideal.addf_def, Ideal.maximumf_def, Ideal.ofBits_def]
  rfl

/-- The left factor of entry `(r, j)` of the third product at position `k` is entry `(r, k)`. -/
theorem lidx52 (r : Fin 100000) (j : Fin 64) (k : Fin 64) : lidx_main_v52 (ix2 r j) k = ix2 r k :=
  funext fun a => Fin.ext (by match a with | ⟨0, _⟩ => rfl | ⟨1, _⟩ => rfl)

/-- The right factor of entry `(r, j)` of the third product at position `k` is entry `(k, j)`. -/
theorem ridx52 (r : Fin 100000) (j : Fin 64) (k : Fin 64) : ridx_main_v52 (ix2 r j) k = ix2 k j :=
  funext fun a => Fin.ext (by match a with | ⟨0, _⟩ => rfl | ⟨1, _⟩ => rfl)

/-- The fourth stage: the third stage times the third weight matrix. -/
theorem ref_v52 : val_main_v52 (F := Ideal) x0 x1 x2 x3 x4 x5 x6
    = Cert.Gcn.lin64 (val_main_v51 (F := Ideal) x0 x1 x2 x3 x4 x5) x6 := by
  funext i
  obtain ⟨r, j, rfl⟩ : ∃ (r : Fin 100000) (j : Fin 64), i = ix2 r j := ⟨i 0, i 1, eq_ix2 i⟩
  rw [val_main_v52_apply]
  simp only [lidx52, ridx52]
  rfl

/-! ### The second aggregation

  The reference builds the index arrays and the normalisation a second time from the edge list, by the
  same operations in the same order as the first time; so they are the same arrays. -/

/-- The second list of sources with the self loops appended is the first. -/
theorem src2 : val_main_v54 (F := Ideal) x1 = val_main_v10 (F := Ideal) x1 := rfl

/-- The second list of destinations with the self loops appended is the first. -/
theorem dst2 : val_main_v55 (F := Ideal) x1 = val_main_v11 (F := Ideal) x1 := rfl

/-- The second count of the edges into every node is the first. -/
theorem deg2 : val_main_v59 (F := Ideal) x1 = val_main_v15 (F := Ideal) x1 := by
  unfold val_main_v59 val_main_v15 val_main_v58 val_main_v14
  rw [dst2]
  rfl

/-- The second inverse square root of the counts, zero where a count is not positive, is the first. -/
theorem dinv2 : val_main_v63 (F := Ideal) x1 = val_main_v19 (F := Ideal) x1 := by
  unfold val_main_v63 val_main_v19 val_main_v61 val_main_v17 val_main_v62 val_main_v18
  rw [deg2]
  rfl

/-- The second normalisation of the edges is the first. -/
theorem norm2 : val_main_v78 (F := Ideal) x1 = val_main_v34 (F := Ideal) x1 := by
  unfold val_main_v78 val_main_v34 val_main_v70 val_main_v26 val_main_v77 val_main_v33 val_main_v69 val_main_v25
    val_main_v76 val_main_v32 val_main_v68 val_main_v24 val_main_v75 val_main_v31 val_main_v65 val_main_v21
    val_main_v72 val_main_v28 val_main_v67 val_main_v23 val_main_v74 val_main_v30
  rw [dinv2, src2, dst2]
  rfl

/-- The second array of gather indices is the first. -/
theorem gidx2 : val_main_v84 (F := Ideal) x1 = val_main_v40 (F := Ideal) x1 := by
  unfold val_main_v84 val_main_v40 val_main_v83 val_main_v39 val_main_v80 val_main_v36 val_main_v82 val_main_v38
  rw [src2]
  rfl

/-- The second normalisation, broadcast along the rows, is the first. -/
theorem nb2 : val_main_v87 (F := Ideal) x1 = val_main_v43 (F := Ideal) x1 := by
  unfold val_main_v87 val_main_v43 val_main_v86 val_main_v42
  rw [norm2]

/-- The second array of scatter indices is the first. -/
theorem sidx2 : val_main_v90 (F := Ideal) x1 = val_main_v46 (F := Ideal) x1 := by
  unfold val_main_v90 val_main_v46
  rw [dst2]

/-- The second zero array the sums start from is the first. -/
theorem zero2 : val_main_v89 (F := Ideal) = val_main_v45 (F := Ideal) := rfl

/-- The second aggregation is the aggregation of the fourth stage. -/
theorem ref_v91 : val_main_v91 (F := Ideal) x0 x1 x2 x3 x4 x5 x6
    = edgeAgg64 (val_main_v52 (F := Ideal) x0 x1 x2 x3 x4 x5 x6) x1 := by
  unfold val_main_v91 val_main_v88 val_main_v85 edgeAgg64
  rw [zero2, sidx2, gidx2, nb2]

/-! ### The second bias and rectifier, the fourth product -/

/-- The third bias, broadcast along the rows, is read at the column of the entry. -/
theorem bidx93 (r : Fin 100000) (j : Fin 64) : idx_main_v92 (idx_main_v93 (ix2 r j)) = ix1 j :=
  funext fun a => Fin.ext (by match a with | ⟨0, _⟩ => rfl)

/-- The fifth stage: the second aggregation plus the third bias, rectified. -/
theorem ref_v95 : val_main_v95 (F := Ideal) x0 x1 x2 x3 x4 x5 x6 x7
    = Cert.Gcn.biasRelu (val_main_v91 (F := Ideal) x0 x1 x2 x3 x4 x5 x6) x7 := by
  funext i
  obtain ⟨r, j, rfl⟩ : ∃ (r : Fin 100000) (j : Fin 64), i = ix2 r j := ⟨i 0, i 1, eq_ix2 i⟩
  rw [val_main_v95_apply, val_main_v94_apply, val_main_v93_apply, val_main_v92_apply, val_main_call3_v0_apply,
    val_main_call3_cst_apply]
  simp only [bidx93, Ideal.addf_def, Ideal.maximumf_def, Ideal.ofBits_def]
  rfl

/-- The left factor of entry `(r, j)` of the fourth product at position `k` is entry `(r, k)`. -/
theorem lidx96 (r : Fin 100000) (j : Fin 32) (k : Fin 64) : lidx_main_v96 (ix2 r j) k = ix2 r k :=
  funext fun a => Fin.ext (by match a with | ⟨0, _⟩ => rfl | ⟨1, _⟩ => rfl)

/-- The right factor of entry `(r, j)` of the fourth product at position `k` is entry `(k, j)`. -/
theorem ridx96 (r : Fin 100000) (j : Fin 32) (k : Fin 64) : ridx_main_v96 (ix2 r j) k = ix2 k j :=
  funext fun a => Fin.ext (by match a with | ⟨0, _⟩ => rfl | ⟨1, _⟩ => rfl)

/-- The sixth stage: the fifth stage times the fourth weight matrix. -/
theorem ref_v96 : val_main_v96 (F := Ideal) x0 x1 x2 x3 x4 x5 x6 x7 x8
    = Cert.Gcn.lin32 (val_main_v95 (F := Ideal) x0 x1 x2 x3 x4 x5 x6 x7) x8 := by
  funext i
  obtain ⟨r, j, rfl⟩ : ∃ (r : Fin 100000) (j : Fin 32), i = ix2 r j := ⟨i 0, i 1, eq_ix2 i⟩
  rw [val_main_v96_apply]
  simp only [lidx96, ridx96]
  rfl

/-! ### The third aggregation, 32 entries to the row

  The reference builds the index arrays and the normalisation a third time from the edge list, again by
  the same operations in the same order; so they are the arrays of the first time. -/

/-- The third list of sources with the self loops appended is the first. -/
theorem src3 : val_main_v98 (F := Ideal) x1 = val_main_v10 (F := Ideal) x1 := rfl

/-- The third list of destinations with the self loops appended is the first. -/
theorem dst3 : val_main_v99 (F := Ideal) x1 = val_main_v11 (F := Ideal) x1 := rfl

/-- The third count of the edges into every node is the first. -/
theorem deg3 : val_main_v103 (F := Ideal) x1 = val_main_v15 (F := Ideal) x1 := by
  unfold val_main_v103 val_main_v15 val_main_v102 val_main_v14
  rw [dst3]
  rfl

/-- The third inverse square root of the counts, zero where a count is not positive, is the first. -/
theorem dinv3 : val_main_v107 (F := Ideal) x1 = val_main_v19 (F := Ideal) x1 := by
  unfold val_main_v107 val_main_v19 val_main_v105 val_main_v17 val_main_v106 val_main_v18
  rw [deg3]
  rfl

/-- The third normalisation of the edges is the first. -/
theorem norm3 : val_main_v122 (F := Ideal) x1 = val_main_v34 (F := Ideal) x1 := by
  unfold val_main_v122 val_main_v34 val_main_v114 val_main_v26 val_main_v121 val_main_v33 val_main_v113 val_main_v25
    val_main_v120 val_main_v32 val_main_v112 val_main_v24 val_main_v119 val_main_v31 val_main_v109 val_main_v21
    val_main_v116 val_main_v28 val_main_v111 val_main_v23 val_main_v118 val_main_v30
  rw [dinv3, src3, dst3]
  rfl

/-- The third array of gather indices is the first. -/
theorem gidx3 : val_main_v128 (F := Ideal) x1 = val_main_v40 (F := Ideal) x1 := by
  unfold val_main_v128 val_main_v40 val_main_v127 val_main_v39 val_main_v124 val_main_v36 val_main_v126 val_main_v38
  rw [src3]
  rfl

/-- The third normalisation as a column is the first. -/
theorem ncol3 : val_main_v130 (F := Ideal) x1 = val_main_v42 (F := Ideal) x1 := by
  unfold val_main_v130 val_main_v42
  rw [norm3]

/-- The third array of scatter indices is the first. -/
theorem sidx3 : val_main_v134 (F := Ideal) x1 = val_main_v46 (F := Ideal) x1 := by
  unfold val_main_v134 val_main_v46
  rw [dst3]

/-- The aggregation of a 32-wide array `hl` over the edge list `ei`, as `edgeAgg64` with 32 entries to
    the row: the same gather and scatter indices, the same normalisation column broadcast along 32. -/
def edgeAgg32 (hl : (⟨S100000x32, .f32⟩ : BufTy).Contents (Elt Ideal)) (ei : (⟨S2x1600000, .i32⟩ : BufTy).Contents (Elt Ideal)) :
    (⟨S100000x32, .f32⟩ : BufTy).Contents (Elt Ideal) :=
  Host.scatterAdd (F := Ideal) (φ := .f32) scatter_S100000x32_S1700000x1_S1700000x32_1_0_0_1 (val_main_v133 (F := Ideal))
    (val_main_v46 (F := Ideal) ei)
    (mulf (F := Ideal) (φ := .f32)
      (Host.gather gather_S100000x32_S1700000x1_S1700000x32_1_0_n_n_0_1_132 hl (val_main_v40 (F := Ideal) ei))
      (broadcastInDim S1700000x32 ![0, 1] bcast_S1700000x1_S1700000x32_0_1 (val_main_v42 (F := Ideal) ei)))

/-- The third aggregation is the aggregation of the sixth stage. -/
theorem ref_v135 : val_main_v135 (F := Ideal) x0 x1 x2 x3 x4 x5 x6 x7 x8
    = edgeAgg32 (val_main_v96 (F := Ideal) x0 x1 x2 x3 x4 x5 x6 x7 x8) x1 := by
  unfold val_main_v135 val_main_v132 val_main_v129 val_main_v131 edgeAgg32
  rw [sidx3, gidx3, ncol3]

/-! ### The last bias and the normalisation of the rows -/

/-- The fourth bias, broadcast along the rows, is read at the column of the entry. -/
theorem bidx137 (r : Fin 100000) (j : Fin 32) : idx_main_v136 (idx_main_v137 (ix2 r j)) = ix1 j :=
  funext fun a => Fin.ext (by match a with | ⟨0, _⟩ => rfl)

/-- The sum of the squares of row `r`, broadcast back along the row, reads entry `(r, k)` at position `k`. -/
theorem ridx140 (r : Fin 100000) (j : Fin 32) (k : Fin 32) :
    idx_main_v140 (idx_main_v141 (idx_main_v145 (ix2 r j))) k = ix2 r k :=
  funext fun a => Fin.ext (by match a with | ⟨0, _⟩ => rfl | ⟨1, _⟩ => rfl)

/-- The third aggregation plus the fourth bias, at entry `(r, j)`. -/
theorem v138_at (r : Fin 100000) (j : Fin 32) :
    val_main_v138 (F := Ideal) x0 x1 x2 x3 x4 x5 x6 x7 x8 x9 (ix2 r j)
      = val_main_v135 (F := Ideal) x0 x1 x2 x3 x4 x5 x6 x7 x8 (ix2 r j) + x9 (ix1 j) := by
  rw [val_main_v138_apply, val_main_v137_apply, val_main_v136_apply, bidx137, Ideal.addf_def]

/-- The square of that entry, as the row sum reads it at position `k`. -/
theorem v139_at (r : Fin 100000) (j : Fin 32) (k : Fin 32) :
    val_main_v139 (F := Ideal) x0 x1 x2 x3 x4 x5 x6 x7 x8 x9 (idx_main_v140 (idx_main_v141 (idx_main_v145 (ix2 r j))) k)
      = (val_main_v135 (F := Ideal) x0 x1 x2 x3 x4 x5 x6 x7 x8 (ix2 r k) + x9 (ix1 k))
        * (val_main_v135 (F := Ideal) x0 x1 x2 x3 x4 x5 x6 x7 x8 (ix2 r k) + x9 (ix1 k)) := by
  rw [ridx140, val_main_v139_apply, v138_at, Ideal.mulf_def]

/-- The last stage: the third aggregation plus the fourth bias, every row divided by its floored length. -/
theorem ref_v146 : val_main_v146 (F := Ideal) x0 x1 x2 x3 x4 x5 x6 x7 x8 x9
    = Cert.Gcn.biasNormalize (val_main_v135 (F := Ideal) x0 x1 x2 x3 x4 x5 x6 x7 x8) x9 := by
  funext i
  obtain ⟨r, j, rfl⟩ : ∃ (r : Fin 100000) (j : Fin 32), i = ix2 r j := ⟨i 0, i 1, eq_ix2 i⟩
  rw [val_main_v146_apply, val_main_v145_apply, val_main_v144_apply, val_main_v143_apply, val_main_cst_32_apply,
    val_main_v142_apply, val_main_v141_apply, val_main_v140_apply, val_main_cst_31_apply, v138_at,
    Finset.sum_congr rfl (fun k _ => v139_at x0 x1 x2 x3 x4 x5 x6 x7 x8 x9 r j k),
    Ideal.hostDivf_def, Ideal.maximumf_def, Ideal.hostUnary_sqrt_def, Ideal.ofBits_def, Ideal.ofBits_zero_f32, zero_add,
    Ideal.ofBits_def]
  rfl

end Cert.ReferenceIdeal.Hand

end
-- ==== Proof.Bridge.lean ====
/-
  The kernel's result is the reference's last stage, at the same arguments.

  Both programs compute the same chain: the products with the weight matrices, the aggregations over the
  edges, the biases with the rectifier, and the last bias with the division by the row's length.  The
  kernel's chain is stated over the specification's functions and the aggregation's host operations;
  the reference's stages equal the same functions, one stage at a time; and the aggregation's host
  operations are the same operations on both sides, applied to the same concatenated edge indices and
  the same per-edge normalisation.  So the two are one function of the arguments.
-/
import proofs.«179656_j15384572854543_1_alg».proof.Proof.KernelValue
import proofs.«179656_j15384572854543_1_alg».proof.Proof.RefValue

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

open Cert.Gcn

variable (m : (ℓ : Loc nD τ sig) → Buf (Elt Ideal) ℓ) (c : Dev nD)

/-- The kernel's aggregation into 64 columns is the reference's: the same scatter-add of the same gathered and scaled rows. -/
theorem agg64_eq (hl : (⟨S100000x64, .f32⟩ : BufTy).Contents (Elt Ideal)) (ei : (⟨S2x1600000, .i32⟩ : BufTy).Contents (Elt Ideal)) :
    agg64 hl (Cert.ReferenceIdeal.ReadP.val_main_v10 (F := Ideal) ei) (Cert.ReferenceIdeal.ReadP.val_main_v11 (F := Ideal) ei) (Cert.ReferenceIdeal.ReadP.val_main_v34 (F := Ideal) ei)
      = Cert.ReferenceIdeal.Hand.edgeAgg64 hl ei := rfl

/-- The same into 32 columns. -/
theorem agg32_eq (hl : (⟨S100000x32, .f32⟩ : BufTy).Contents (Elt Ideal)) (ei : (⟨S2x1600000, .i32⟩ : BufTy).Contents (Elt Ideal)) :
    agg32 hl (Cert.ReferenceIdeal.ReadP.val_main_v10 (F := Ideal) ei) (Cert.ReferenceIdeal.ReadP.val_main_v11 (F := Ideal) ei) (Cert.ReferenceIdeal.ReadP.val_main_v34 (F := Ideal) ei)
      = Cert.ReferenceIdeal.Hand.edgeAgg32 hl ei := rfl

/-- The kernel's result, as a function of the arguments, is the reference's last stage at those arguments. -/
theorem result_eq_ref : (result m c : (⟨S100000x32, .f32⟩ : BufTy).Contents (Elt Ideal))
    = Cert.ReferenceIdeal.ReadP.val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [Cert.ReferenceIdeal.Hand.ref_v146, Cert.ReferenceIdeal.Hand.ref_v135, Cert.ReferenceIdeal.Hand.ref_v96, Cert.ReferenceIdeal.Hand.ref_v95, Cert.ReferenceIdeal.Hand.ref_v91, Cert.ReferenceIdeal.Hand.ref_v52, Cert.ReferenceIdeal.Hand.ref_v51, Cert.ReferenceIdeal.Hand.ref_v47, Cert.ReferenceIdeal.Hand.ref_v8, Cert.ReferenceIdeal.Hand.ref_v7]
  rw [← agg32_eq, ← agg64_eq, ← agg64_eq]

end Cert.KernelIdeal.Hand

end
-- ==== Proof.lean ====
/-
  The certificate: a three-layer graph convolution network, computed by seven kernel launches among
  host gathers and scatter-adds, against its plain reference, over the extended reals.

  The three frames: the two kernel programs run to the end without a fault and leave their arguments
  unchanged (the run segment by segment); the reference's frame is its run with the result dropped.
  What the idealization must preserve is stated as `True`: that claim lists no rewritten operation.
  The value claim: the kernel's result array ends at one function of the arguments — products with
  the weight matrices block by block, which are the rows of the whole products; the same host
  aggregations over the edges; the biases, rectifiers and the final normalisation row by row — and the
  reference's result ends at its last stage, which is that same function.  Formats change nothing over
  the extended reals, a product into a zero accumulator is the plain sum, and no law that needs
  finiteness is used, so the precondition is never opened.
-/
import proofs.«179656_j15384572854543_1_alg».proof.Defs
import proofs.«179656_j15384572854543_1_alg».proof.Proof.Gen.Kernel
import proofs.«179656_j15384572854543_1_alg».proof.Proof.Gen.Kernel.Skeleton
import proofs.«179656_j15384572854543_1_alg».proof.Proof.Gen.Kernel.Launch
import proofs.«179656_j15384572854543_1_alg».proof.Proof.Gen.Kernel.Points
import proofs.«179656_j15384572854543_1_alg».proof.Proof.Gen.Kernel.Frame
import proofs.«179656_j15384572854543_1_alg».proof.Proof.Gen.KernelIdeal
import proofs.«179656_j15384572854543_1_alg».proof.Proof.Gen.KernelIdeal.Skeleton
import proofs.«179656_j15384572854543_1_alg».proof.Proof.Gen.KernelIdeal.Launch
import proofs.«179656_j15384572854543_1_alg».proof.Proof.Gen.KernelIdeal.Points
import proofs.«179656_j15384572854543_1_alg».proof.Proof.Gen.KernelIdeal.Frame
import proofs.«179656_j15384572854543_1_alg».proof.Proof.Gen.ReferenceIdeal
import proofs.«179656_j15384572854543_1_alg».proof.Proof.Gen.Pre_finite_inputs
import proofs.«179656_j15384572854543_1_alg».proof.Proof.KernelRun
import proofs.«179656_j15384572854543_1_alg».proof.Proof.KernelValue
import proofs.«179656_j15384572854543_1_alg».proof.Proof.RefRun
import proofs.«179656_j15384572854543_1_alg».proof.Proof.RefResult
import proofs.«179656_j15384572854543_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the same result: the kernel's at the specification's function of its arguments, the
    reference's at its last stage of arguments that agree with the kernel's. -/
theorem algebraic : Cert.algebraic_KernelIdeal_ReferenceIdeal := by
  intro m ρ m' ρ' _ hagree
  refine ⟨fun c => Cert.KernelIdeal.Hand.result m c, ?_, ?_⟩
  · exact (θ_run Cert.KernelIdeal.defs _ _).mono
      (fun _ h c => ⟨(h c).1.trans (Cert.KernelIdeal.Hand.at13 m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.Hand.result_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1, (hagree c).2.2.2.2.2.2.2.2.2]
    exact (Cert.KernelIdeal.Hand.result_eq_ref m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
